-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1000000 : Shape := ⟨2, ![2, 1000000]⟩
abbrev S100000x64 : Shape := ⟨2, ![100000, 64]⟩
abbrev S50000x64 : Shape := ⟨2, ![50000, 64]⟩
abbrev S128x64 : Shape := ⟨2, ![128, 64]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x128 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  main_v38

def fn_part1 {F : FTy → Type} [FloatOps F] (main_arg5 : FVec F S128x64 .f32) (main_arg6 : FVec F S64x128 .f32) (main_arg7 : FVec F S64 .f32) (main_arg8 : FVec F S64x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : IVec S2x1000000 32) (main_arg1 : FVec F S100000x64 .f32) (main_arg2 : FVec F S50000x64 .f32) (main_arg3 : FVec F S128x64 .f32) (main_arg4 : FVec F S128 .f32) (main_arg5 : FVec F S128x64 .f32) (main_arg6 : FVec F S64x128 .f32) (main_arg7 : FVec F S64 .f32) (main_arg8 : FVec F S64x128 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg2
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S2x1000000 : Shape := ⟨2, ![2, 1000000]⟩
abbrev S100000x64 : Shape := ⟨2, ![100000, 64]⟩
abbrev S50000x64 : Shape := ⟨2, ![50000, 64]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x1000000 : Shape := ⟨2, ![1, 1000000]⟩
abbrev S1000000 : Shape := ⟨1, ![1000000]⟩
abbrev S150000x64 : Shape := ⟨2, ![150000, 64]⟩
abbrev S_ : Shape := ⟨0, ![]⟩
abbrev S150000 : Shape := ⟨1, ![150000]⟩
abbrev S1000000x1 : Shape := ⟨2, ![1000000, 1]⟩
abbrev S150000x1 : Shape := ⟨2, ![150000, 1]⟩
abbrev S1000000x64 : Shape := ⟨2, ![1000000, 64]⟩
abbrev S150000x128 : Shape := ⟨2, ![150000, 128]⟩
abbrev S5000x64 : Shape := ⟨2, ![5000, 64]⟩
abbrev S5000x128 : Shape := ⟨2, ![5000, 128]⟩
abbrev S1x128 : Shape := ⟨2, ![1, 128]⟩
abbrev S1000000x128 : Shape := ⟨2, ![1000000, 128]⟩
abbrev S1x64 : Shape := ⟨2, ![1, 64]⟩

abbrev nBuf : Space → Nat
  | .hbm => 61
  | .vmem => 18
  | .smem => 0
  | _ => 0

abbrev bufTy : (tb : Table) → Fin (tcTables nBuf tb) → BufTy
  | .hbm, ⟨0, _⟩ => ⟨S2x1000000, .i32⟩
  | .hbm, ⟨1, _⟩ => ⟨S100000x64, .f32⟩
  | .hbm, ⟨2, _⟩ => ⟨S50000x64, .f32⟩
  | .hbm, ⟨3, _⟩ => ⟨S128x64, .f32⟩
  | .hbm, ⟨4, _⟩ => ⟨S128, .f32⟩
  | .hbm, ⟨5, _⟩ => ⟨S128x64, .f32⟩
  | .hbm, ⟨6, _⟩ => ⟨S64x128, .f32⟩
  | .hbm, ⟨7, _⟩ => ⟨S64, .f32⟩
  | .hbm, ⟨8, _⟩ => ⟨S64x128, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S150000x64, .f32⟩
  | .hbm, ⟨14, _⟩ => ⟨S_, .f32⟩
  | .hbm, ⟨15, _⟩ => ⟨S1000000, .f32⟩
  | .hbm, ⟨16, _⟩ => ⟨S_, .f32⟩
  | .hbm, ⟨17, _⟩ => ⟨S150000, .f32⟩
  | .hbm, ⟨18, _⟩ => ⟨S1000000x1, .i32⟩
  | .hbm, ⟨19, _⟩ => ⟨S150000, .f32⟩
  | .hbm, ⟨20, _⟩ => ⟨S_, .f32⟩
  | .hbm, ⟨21, _⟩ => ⟨S150000, .f32⟩
  | .hbm, ⟨22, _⟩ => ⟨S150000, .f32⟩
  | .hbm, ⟨23, _⟩ => ⟨S_, .f32⟩
  | .hbm, ⟨24, _⟩ => ⟨S150000, .f32⟩
  | .hbm, ⟨25, _⟩ => ⟨S150000, .f32⟩
  | .hbm, ⟨26, _⟩ => ⟨S150000x1, .f32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000x64, .f32⟩
  | .hbm, ⟨36, _⟩ => ⟨S_, .f32⟩
  | .hbm, ⟨37, _⟩ => ⟨S150000x64, .f32⟩
  | .hbm, ⟨38, _⟩ => ⟨S1000000x1, .i32⟩
  | .hbm, ⟨39, _⟩ => ⟨S150000x64, .f32⟩
  | .hbm, ⟨40, _⟩ => ⟨S150000x64, .f32⟩
  | .hbm, ⟨41, _⟩ => ⟨S150000x64, .f32⟩
  | .hbm, ⟨42, _⟩ => ⟨S150000x128, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1000000x128, .f32⟩
  | .hbm, ⟨52, _⟩ => ⟨S_, .f32⟩
  | .hbm, ⟨53, _⟩ => ⟨S150000x128, .f32⟩
  | .hbm, ⟨54, _⟩ => ⟨S1000000x1, .i32⟩
  | .hbm, ⟨55, _⟩ => ⟨S150000x128, .f32⟩
  | .hbm, ⟨56, _⟩ => ⟨S150000x128, .f32⟩
  | .hbm, ⟨57, _⟩ => ⟨S150000x128, .f32⟩
  | .hbm, ⟨58, _⟩ => ⟨S150000x64, .f32⟩
  | .hbm, ⟨59, _⟩ => ⟨S100000x64, .f32⟩
  | .hbm, ⟨60, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S128x64, .f32⟩
  | .local _ .vmem, ⟨5, _⟩ => ⟨S128, .f32⟩
  | .local _ .vmem, ⟨6, _⟩ => ⟨S128x64, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S64x128, .f32⟩
  | .local _ .vmem, ⟨14, _⟩ => ⟨S64, .f32⟩
  | .local _ .vmem, ⟨15, _⟩ => ⟨S64x128, .f32⟩
  | .local _ .vmem, ⟨16, _⟩ => ⟨S5000x64, .f32⟩
  | .local _ .vmem, ⟨17, _⟩ => ⟨S5000x64, .f32⟩
  | _, _ => ⟨S2x1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S100000x64_S50000x64_S150000x64_d0 : Shape.Concatenates [S100000x64, S50000x64] S150000x64 0
  bcast_S_S1000000 : S_.BroadcastsInDim S1000000 (![] : Fin 0 → Fin S1000000.rank)
  bcast_S_S150000 : S_.BroadcastsInDim S150000 (![] : Fin 0 → Fin S150000.rank)
  bcast_S1000000_S1000000x1_0 : S1000000.BroadcastsInDim S1000000x1 (![0] : Fin 1 → Fin S1000000x1.rank)
  bcast_S150000_S150000x1_0 : S150000.BroadcastsInDim S150000x1 (![0] : Fin 1 → Fin S150000x1.rank)
  bcast_S_S150000x64 : S_.BroadcastsInDim S150000x64 (![] : Fin 0 → Fin S150000x64.rank)
  bcast_S150000x1_S150000x64_0_1 : S150000x1.BroadcastsInDim S150000x64 (![0, 1] : Fin 2 → Fin S150000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S150000x128 : S_.BroadcastsInDim S150000x128 (![] : Fin 0 → Fin S150000x128.rank)
  bcast_S150000x1_S150000x128_0_1 : S150000x1.BroadcastsInDim S150000x128 (![0, 1] : Fin 2 → Fin S150000x128.rank)
  shapeCasts_S5000x128_S5000x128 : S5000x128.ShapeCasts S5000x128
  inb_S64x128_S64x128_0_0 : ∀ a, (![0, 0] : Fin 2 → Nat) a + S64x128.size a ≤ S64x128.size a
  h_S64x128 : 0 < S64x128.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  slices_S150000x64_S100000x64_0_0 : S150000x64.Slices ![0, 0] S100000x64
  slices_S150000x64_S50000x64_100000_0 : S150000x64.Slices ![100000, 0] S50000x64
  scatter_S150000_S1000000x1_S1000000_n_0_0_1_wf : ScatterDims.WF S150000 S1000000x1 S1000000 [] [0] [0] 1
  gather_S150000x64_S1000000x1_S1000000x64_1_0_n_n_0_1_164_wf : GatherDims.WF S150000x64 S1000000x1 S1000000x64 [1] [0] [] [0] [] 1 ![1, 64]
  scatter_S150000x64_S1000000x1_S1000000x64_1_0_0_1_wf : ScatterDims.WF S150000x64 S1000000x1 S1000000x64 [1] [0] [0] 1
  dot_S5000x64_S128x64_S5000x128_1_1_0_0_n_n_wf : DotDims.WF S5000x64 S128x64 S5000x128 [1] [1] [0] [0] [] []
  gather_S150000x128_S1000000x1_S1000000x128_1_0_n_n_0_1_1128_wf : GatherDims.WF S150000x128 S1000000x1 S1000000x128 [1] [0] [] [0] [] 1 ![1, 128]
  scatter_S150000x128_S1000000x1_S1000000x128_1_0_0_1_wf : ScatterDims.WF S150000x128 S1000000x1 S1000000x128 [1] [0] [0] 1
  dot_S5000x128_S64x128_S5000x64_1_1_0_0_n_n_wf : DotDims.WF S5000x128 S64x128 S5000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S150000x64.size a
  hwx0_0 : ∀ i : grid0.Coords, EltTy.bits .f32 = 32 ∨ (Rect.block (s := S150000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S150000x64.size a
  hwx0_1 : ∀ i : grid0.Coords, EltTy.bits .f32 = 32 ∨ (Rect.block (s := S150000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S150000x128.size a
  hwx0_5 : ∀ i : grid0.Coords, EltTy.bits .f32 = 32 ∨ (Rect.block (s := S150000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S150000x128.size a
  hwx1_0 : ∀ i : grid1.Coords, EltTy.bits .f32 = 32 ∨ (Rect.block (s := S150000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S150000x128.size a
  hwx1_1 : ∀ i : grid1.Coords, EltTy.bits .f32 = 32 ∨ (Rect.block (s := S150000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S150000x64.size a
  hwx1_5 : ∀ i : grid1.Coords, EltTy.bits .f32 = 32 ∨ (Rect.block (s := S150000x64) S5000x64.size (cc1_transform_5 i) (hinb1_5 i)).WholeWords (EltTy.packing .f32)

variable [Facts₀]

def scatter_S150000_S1000000x1_S1000000_n_0_0_1 : ScatterDims S150000 S1000000x1 S1000000 where
  updateWindowDims := []
  insertedWindowDims := [0]
  scatterDimsToOperandDims := [0]
  indexVectorDim := 1
  wf := scatter_S150000_S1000000x1_S1000000_n_0_0_1_wf
def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf
def dot_S5000x64_S128x64_S5000x128_1_1_0_0_n_n : DotDims S5000x64 S128x64 S5000x128 where
  lhsContracting := [1]
  rhsContracting := [1]
  lhsNonContracting := [0]
  rhsNonContracting := [0]
  lhsBatch := []
  rhsBatch := []
  wf := dot_S5000x64_S128x64_S5000x128_1_1_0_0_n_n_wf
def gather_S150000x128_S1000000x1_S1000000x128_1_0_n_n_0_1_1128 : GatherDims S150000x128 S1000000x1 S1000000x128 where
  offsetDims := [1]
  collapsedSliceDims := [0]
  operandBatchingDims := []
  startIndicesBatchingDims := []
  startIndexMap := [0]
  indexVectorDim := 1
  sliceSizes := ![1, 128]
  wf := gather_S150000x128_S1000000x1_S1000000x128_1_0_n_n_0_1_1128_wf
def scatter_S150000x128_S1000000x1_S1000000x128_1_0_0_1 : ScatterDims S150000x128 S1000000x1 S1000000x128 where
  updateWindowDims := [1]
  insertedWindowDims := [0]
  scatterDimsToOperandDims := [0]
  indexVectorDim := 1
  wf := scatter_S150000x128_S1000000x1_S1000000x128_1_0_0_1_wf
def dot_S5000x128_S64x128_S5000x64_1_1_0_0_n_n : DotDims S5000x128 S64x128 S5000x64 where
  lhsContracting := [1]
  rhsContracting := [1]
  lhsNonContracting := [0]
  rhsNonContracting := [0]
  lhsBatch := []
  rhsBatch := []
  wf := dot_S5000x128_S64x128_S5000x64_1_1_0_0_n_n_wf

abbrev win0_0 : Pipeline.Window sig grid0 :=
  Pipeline.Window.ofSpec (Memref.whole main_v4) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x1000000 : Shape := ⟨2, ![2, 1000000]⟩
abbrev S100000x64 : Shape := ⟨2, ![100000, 64]⟩
abbrev S50000x64 : Shape := ⟨2, ![50000, 64]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x1000000 : Shape := ⟨2, ![1, 1000000]⟩
abbrev S1000000 : Shape := ⟨1, ![1000000]⟩
abbrev S150000x64 : Shape := ⟨2, ![150000, 64]⟩
abbrev S_ : Shape := ⟨0, ![]⟩
abbrev S1000000x1 : Shape := ⟨2, ![1000000, 1]⟩
abbrev S1000000x64 : Shape := ⟨2, ![1000000, 64]⟩
abbrev S150000 : Shape := ⟨1, ![150000]⟩
abbrev S150000x1 : Shape := ⟨2, ![150000, 1]⟩
abbrev S150000x128 : Shape := ⟨2, ![150000, 128]⟩
abbrev S1x128 : Shape := ⟨2, ![1, 128]⟩
abbrev S1000000x128 : Shape := ⟨2, ![1000000, 128]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S2x1000000, .i32⟩
  | .hbm, ⟨1, _⟩ => ⟨S100000x64, .f32⟩
  | .hbm, ⟨2, _⟩ => ⟨S50000x64, .f32⟩
  | .hbm, ⟨3, _⟩ => ⟨S128x64, .f32⟩
  | .hbm, ⟨4, _⟩ => ⟨S128, .f32⟩
  | .hbm, ⟨5, _⟩ => ⟨S128x64, .f32⟩
  | .hbm, ⟨6, _⟩ => ⟨S64x128, .f32⟩
  | .hbm, ⟨7, _⟩ => ⟨S64, .f32⟩
  | .hbm, ⟨8, _⟩ => ⟨S64x128, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S150000x64, .f32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x64, .f32⟩
  | .hbm, ⟨23, _⟩ => ⟨S_, .f32⟩
  | .hbm, ⟨24, _⟩ => ⟨S150000x64, .f32⟩
  | .hbm, ⟨25, _⟩ => ⟨S1000000x1, .i32⟩
  | .hbm, ⟨26, _⟩ => ⟨S150000x64, .f32⟩
  | .hbm, ⟨27, _⟩ => ⟨S_, .f32⟩
  | .hbm, ⟨28, _⟩ => ⟨S1000000, .f32⟩
  | .hbm, ⟨29, _⟩ => ⟨S_, .f32⟩
  | .hbm, ⟨30, _⟩ => ⟨S150000, .f32⟩
  | .hbm, ⟨31, _⟩ => ⟨S1000000x1, .i32⟩
  | .hbm, ⟨32, _⟩ => ⟨S150000, .f32⟩
  | .hbm, ⟨33, _⟩ => ⟨S_, .f32⟩
  | .hbm, ⟨34, _⟩ => ⟨S150000, .f32⟩
  | .hbm, ⟨35, _⟩ => ⟨S150000, .f32⟩
  | .hbm, ⟨36, _⟩ => ⟨S150000x1, .f32⟩
  | .hbm, ⟨37, _⟩ => ⟨S150000x64, .f32⟩
  | .hbm, ⟨38, _⟩ => ⟨S150000x64, .f32⟩
  | .hbm, ⟨39, _⟩ => ⟨S64x128, .f32⟩
  | .hbm, ⟨40, _⟩ => ⟨S150000x128, .f32⟩
  | .hbm, ⟨41, _⟩ => ⟨S1x128, .f32⟩
  | .hbm, ⟨42, _⟩ => ⟨S150000x128, .f32⟩
  | .hbm, ⟨43, _⟩ => ⟨S150000x128, .f32⟩
  | .hbm, ⟨44, _⟩ => ⟨S64x128, .f32⟩
  | .hbm, ⟨45, _⟩ => ⟨S150000x128, .f32⟩
  | .hbm, ⟨46, _⟩ => ⟨S150000x128, .f32⟩
  | .hbm, ⟨47, _⟩ => ⟨S_, .f32⟩
  | .hbm, ⟨48, _⟩ => ⟨S150000x128, .f32⟩
  | .hbm, ⟨49, _⟩ => ⟨S150000x128, .f32⟩
  | .hbm, ⟨50, _⟩ => ⟨S_, .i32⟩
  | .hbm, ⟨51, _⟩ => ⟨S1000000, .i32⟩
  | .hbm, ⟨52, _⟩ => ⟨S1000000, .i1⟩
  | .hbm, ⟨53, _⟩ => ⟨S_, .i32⟩
  | .hbm, ⟨54, _⟩ => ⟨S1000000, .i32⟩
  | .hbm, ⟨55, _⟩ => ⟨S1000000, .i32⟩
  | .hbm, ⟨56, _⟩ => ⟨S1000000, .i32⟩
  | .hbm, ⟨57, _⟩ => ⟨S1000000x1, .i32⟩
  | .hbm, ⟨58, _⟩ => ⟨S1000000x128, .f32⟩
  | .hbm, ⟨59, _⟩ => ⟨S_, .f32⟩
  | .hbm, ⟨60, _⟩ => ⟨S150000x128, .f32⟩
  | .hbm, ⟨61, _⟩ => ⟨S1000000x1, .i32⟩
  | .hbm, ⟨62, _⟩ => ⟨S150000x128, .f32⟩
  | .hbm, ⟨63, _⟩ => ⟨S_, .f32⟩
  | .hbm, ⟨64, _⟩ => ⟨S1000000, .f32⟩
  | .hbm, ⟨65, _⟩ => ⟨S_, .f32⟩
  | .hbm, ⟨66, _⟩ => ⟨S150000, .f32⟩
  | .hbm, ⟨67, _⟩ => ⟨S1000000x1, .i32⟩
  | .hbm, ⟨68, _⟩ => ⟨S150000, .f32⟩
  | .hbm, ⟨69, _⟩ => ⟨S_, .f32⟩
  | .hbm, ⟨70, _⟩ => ⟨S150000, .f32⟩
  | .hbm, ⟨71, _⟩ => ⟨S150000, .f32⟩
  | .hbm, ⟨72, _⟩ => ⟨S150000x1, .f32⟩
  | .hbm, ⟨73, _⟩ => ⟨S150000x128, .f32⟩
  | .hbm, ⟨74, _⟩ => ⟨S150000x128, .f32⟩
  | .hbm, ⟨75, _⟩ => ⟨S128x64, .f32⟩
  | .hbm, ⟨76, _⟩ => ⟨S150000x64, .f32⟩
  | .hbm, ⟨77, _⟩ => ⟨S1x64, .f32⟩
  | .hbm, ⟨78, _⟩ => ⟨S150000x64, .f32⟩
  | .hbm, ⟨79, _⟩ => ⟨S150000x64, .f32⟩
  | .hbm, ⟨80, _⟩ => ⟨S128x64, .f32⟩
  | .hbm, ⟨81, _⟩ => ⟨S150000x64, .f32⟩
  | .hbm, ⟨82, _⟩ => ⟨S150000x64, .f32⟩
  | .hbm, ⟨83, _⟩ => ⟨S100000x64, .f32⟩
  | .hbm, ⟨84, _⟩ => ⟨S50000x64, .f32⟩
  | _, _ => ⟨S2x1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_cst : Ref sig .tc := ⟨.hbm, 47, rfl⟩
abbrev main_call0_v0 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S100000x64_S50000x64_S150000x64_d0 : Shape.Concatenates [S100000x64, S50000x64] S150000x64 0
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S150000x64 : S_.BroadcastsInDim S150000x64 (![] : Fin 0 → Fin S150000x64.rank)
  bcast_S_S150000 : S_.BroadcastsInDim S150000 (![] : Fin 0 → Fin S150000.rank)
  bcast_S150000_S150000x1_0 : S150000.BroadcastsInDim S150000x1 (![0] : Fin 1 → Fin S150000x1.rank)
  bcast_S150000x1_S150000x64_0_1 : S150000x1.BroadcastsInDim S150000x64 (![0, 1] : Fin 2 → Fin S150000x64.rank)
  transposes_S128x64_S64x128_1_0 : S128x64.Transposes [1, 0] S64x128
  bcast_S128_S1x128_1 : S128.BroadcastsInDim S1x128 (![1] : Fin 1 → Fin S1x128.rank)
  bcast_S1x128_S150000x128_0_1 : S1x128.BroadcastsInDim S150000x128 (![0, 1] : Fin 2 → Fin S150000x128.rank)
  bcast_S_S150000x128 : S_.BroadcastsInDim S150000x128 (![] : Fin 0 → Fin S150000x128.rank)
  bcast_S150000x1_S150000x128_0_1 : S150000x1.BroadcastsInDim S150000x128 (![0, 1] : Fin 2 → Fin S150000x128.rank)
  transposes_S64x128_S128x64_1_0 : S64x128.Transposes [1, 0] S128x64
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  slices_S150000x64_S100000x64_0_0 : S150000x64.Slices ![0, 0] S100000x64
  slices_S150000x64_S50000x64_100000_0 : S150000x64.Slices ![100000, 0] S50000x64
  gather_S150000x64_S1000000x1_S1000000x64_1_0_n_n_0_1_164_wf : GatherDims.WF S150000x64 S1000000x1 S1000000x64 [1] [0] [] [0] [] 1 ![1, 64]
  scatter_S150000x64_S1000000x1_S1000000x64_1_0_0_1_wf : ScatterDims.WF S150000x64 S1000000x1 S1000000x64 [1] [0] [0] 1
  scatter_S150000_S1000000x1_S1000000_n_0_0_1_wf : ScatterDims.WF S150000 S1000000x1 S1000000 [] [0] [0] 1
  dot_S150000x64_S64x128_S150000x128_1_0_0_1_n_n_wf : DotDims.WF S150000x64 S64x128 S150000x128 [1] [0] [0] [1] [] []
  gather_S150000x128_S1000000x1_S1000000x128_1_0_n_n_0_1_1128_wf : GatherDims.WF S150000x128 S1000000x1 S1000000x128 [1] [0] [] [0] [] 1 ![1, 128]
  scatter_S150000x128_S1000000x1_S1000000x128_1_0_0_1_wf : ScatterDims.WF S150000x128 S1000000x1 S1000000x128 [1] [0] [0] 1
  dot_S150000x128_S128x64_S150000x64_1_0_0_1_n_n_wf : DotDims.WF S150000x128 S128x64 S150000x64 [1] [0] [0] [1] [] []

variable [Facts₀]

def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf
def scatter_S150000_S1000000x1_S1000000_n_0_0_1 : ScatterDims S150000 S1000000x1 S1000000 where
  updateWindowDims := []
  insertedWindowDims := [0]
  scatterDimsToOperandDims := [0]
  indexVectorDim := 1
  wf := scatter_S150000_S1000000x1_S1000000_n_0_0_1_wf
def dot_S150000x64_S64x128_S150000x128_1_0_0_1_n_n : DotDims S150000x64 S64x128 S150000x128 where
  lhsContracting := [1]
  rhsContracting := [0]
  lhsNonContracting := [0]
  rhsNonContracting := [1]
  lhsBatch := []
  rhsBatch := []
  wf := dot_S150000x64_S64x128_S150000x128_1_0_0_1_n_n_wf
def gather_S150000x128_S1000000x1_S1000000x128_1_0_n_n_0_1_1128 : GatherDims S150000x128 S1000000x1 S1000000x128 where
  offsetDims := [1]
  collapsedSliceDims := [0]
  operandBatchingDims := []
  startIndicesBatchingDims := []
  startIndexMap := [0]
  indexVectorDim := 1
  sliceSizes := ![1, 128]
  wf := gather_S150000x128_S1000000x1_S1000000x128_1_0_n_n_0_1_1128_wf
def scatter_S150000x128_S1000000x1_S1000000x128_1_0_0_1 : ScatterDims S150000x128 S1000000x1 S1000000x128 where
  updateWindowDims := [1]
  insertedWindowDims := [0]
  scatterDimsToOperandDims := [0]
  indexVectorDim := 1
  wf := scatter_S150000x128_S1000000x1_S1000000x128_1_0_0_1_wf
def dot_S150000x128_S128x64_S150000x64_1_0_0_1_n_n : DotDims S150000x128 S128x64 S150000x64 where
  lhsContracting := [1]
  rhsContracting := [0]
  lhsNonContracting := [0]
  rhsNonContracting := [1]
  lhsBatch := []
  rhsBatch := []
  wf := dot_S150000x128_S128x64_S150000x64_1_0_0_1_n_n_wf

class Facts : Prop extends Facts₀ where

variable [Facts]
-- ==== Proof.KernelRun.lean ====
/-
  The kernel program's run with its two results NAMED.

  The program is five segments: host operations, the first layer's region, host operations, the second layer's region,
  and the two closing slices. The frame proof already follows the buffers' contents through these segments — after
  the last one every buffer the program owns holds the value of the fold `W5` — and reads the argument arrays back
  from it. Reading the two result buffers from the same final contents gives the run below: every execution ends,
  faults nowhere, leaves the arguments as launched, and leaves each result at `W5` of its buffer.
-/
import proofs.«104872_j64819646431531_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two results end at the last
    boundary's contents of their buffers, the arguments as launched. -/
theorem run_named : θ_run defs (onTc (τ := τ) (main (F := F))) ⟨m, fun _ => 0, ρ⟩ (fun r => ∀ c : Dev nD,
      r.2.mem ((c.tc : Thread nD τ).loc main_v40) = W5 m ρ c (Proc.devRef .tc main_v40)
      ∧ r.2.mem ((c.tc : Thread nD τ).loc main_v41) = W5 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v40 (by decide)),
       h c _ (mem_uc main_v41 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KernelIdeal.Run

end
-- ==== Proof.LibDenseRows.lean ====
/-
  Dense layers read one row at a time, over the extended reals.

  A row `h` of length `K` meets a weight matrix `W` of shape `[N, K]` as `lin W h = (∑ₖ hₖ · Wₙₖ)ₙ`, the product
  with the TRANSPOSE of `W`; `affine` adds a bias, `layer` applies `tanh` to that.

  The lemmas say that the vector operations a kernel spells such a layer with act on each row by these maps:
  a matrix product `x · wᵀ` into a zero accumulator (`matmulT_row`: row `r` of the product is `lin w (row r of x)`,
  since entry `(r, n)` is `0 + ∑ₖ x(r, k) · wᵀ(k, n)` and `wᵀ(k, n) = w(n, k)`), a bias vector laid out as one row and
  repeated down the rows (`bias_row`: every row is the bias), and the entrywise sum and `tanh`.
  The matrix product is stated for any two-axis dot record whose operand indices are the plain ones — the left
  operand at `(r, k)`, the right at `(k, n)` — given as four hypotheses, so that it applies to each printed record.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibDenseRows

open Idealize.ShloMosaic Idealize.ShloMosaic.ValueIdx

/-- A `[N, K]` array as a matrix of its coordinates. -/
abbrev mat {N K : ℕ} (w : (⟨2, ![N, K]⟩ : Shape).Idx → EReal) : Fin N → Fin K → EReal := fun n k => w (ix2 n k)

/-- An `[N]` array as a function of its coordinate. -/
abbrev vec {N : ℕ} (b : (⟨1, ![N]⟩ : Shape).Idx → EReal) : Fin N → EReal := fun n => b (ix1 n)

/-- Row `r` of a matrix. -/
def row2 {R K : ℕ} (x : (⟨2, ![R, K]⟩ : Shape).Idx → EReal) (r : Fin R) : Fin K → EReal := fun k => x (ix2 r k)

/-- The row of a three-axis array at its first two coordinates. -/
def row3 {A B K : ℕ} (x : (⟨3, ![A, B, K]⟩ : Shape).Idx → EReal) (p : Fin A) (s : Fin B) : Fin K → EReal :=
  fun k => x (ix3 p s k)

/-- A row times the transpose of `W`: entry `n` is `∑ₖ hₖ · Wₙₖ`. -/
def lin {K N : ℕ} (W : Fin N → Fin K → EReal) (h : Fin K → EReal) : Fin N → EReal := fun n => ∑ k : Fin K, h k * W n k

/-- The same plus the bias. -/
def affine {K N : ℕ} (W : Fin N → Fin K → EReal) (b : Fin N → EReal) (h : Fin K → EReal) : Fin N → EReal :=
  fun n => lin W h n + b n

/-- One hidden layer: `tanh` of the affine map, entry by entry (`tanh` extended by its limits `∓1` at `∓∞`). -/
def layer {K N : ℕ} (W : Fin N → Fin K → EReal) (b : Fin N → EReal) (h : Fin K → EReal) : Fin N → EReal :=
  fun n => Ideal.tanh (affine W b h n)

/-- Two matrices with the same rows are equal. -/
theorem ext_row2 {R K : ℕ} {x y : (⟨2, ![R, K]⟩ : Shape).Idx → EReal} (h : ∀ r, row2 x r = row2 y r) : x = y := by
  funext j
  rw [eq_ix2 j]
  exact congrFun (h (j 0)) (j 1)

/-- Row `r` of `x · wᵀ` accumulated into zero is `lin w` of row `r` of `x`. The dot record `d` is any whose
    contraction has one axis of extent `K` and whose operand indices at output `(r, n)` and contraction position `k`
    are `(r, k)` on the left and `(k, n)` on the right. -/
theorem matmulT_row {R K N : ℕ} (d : DotDims ⟨2, ![R, K]⟩ ⟨2, ![K, N]⟩ ⟨2, ![R, N]⟩)
    (hrank : d.contr.rank = 1) (hsize : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ .f32) (w : FVec Ideal ⟨2, ![N, K]⟩ .f32)
    (ht : (⟨2, ![N, K]⟩ : Shape).Transposes [1, 0] ⟨2, ![K, N]⟩) (r : Fin R) :
    row2 (matmul d none x (transpose ⟨2, ![K, N]⟩ [1, 0] w ht) (constant (F := Ideal) ⟨2, ![R, N]⟩ .f32 0x00000000#32)) r
      = lin (mat w) (row2 x r) := by
  funext n
  show FloatOps.matmul d none x (transpose ⟨2, ![K, N]⟩ [1, 0] w ht) (constant (F := Ideal) ⟨2, ![R, N]⟩ .f32 0x00000000#32) (ix2 r n)
    = ∑ k : Fin K, x (ix2 r k) * w (ix2 n k)
  rw [Ideal.matmul_constant_zero_apply, ← Equiv.sum_comp (contrEquiv1 d K hrank hsize).symm]
  refine Finset.sum_congr rfl fun k _ => ?_
  have hk := contrEquiv1_symm_val d K hrank hsize k
  have el : d.lhsIdx (ix2 r n) ((contrEquiv1 d K hrank hsize).symm k) = ix2 r k := funext fun a => Fin.ext (by
    match a with
    | ⟨0, _⟩ => exact hl0 _ _
    | ⟨1, _⟩ => exact (hl1 _ _).trans hk)
  have er : d.rhsIdx (ix2 r n) ((contrEquiv1 d K hrank hsize).symm k) = ix2 k n := funext fun a => Fin.ext (by
    match a with
    | ⟨0, _⟩ => exact (hr0 _ _).trans hk
    | ⟨1, _⟩ => exact hr1 _ _)
  rw [el, er, transpose_ix2_apply]

/-- A bias vector cast to one row `[1, N]` and repeated down `R` rows: every row is the bias. -/
theorem bias_row {R N : ℕ} (b : FVec Ideal ⟨1, ![N]⟩ .f32) (hc : (⟨1, ![N]⟩ : Shape).ShapeCasts ⟨2, ![1, N]⟩)
    (hb : (⟨2, ![1, N]⟩ : Shape).Broadcasts ⟨2, ![R, N]⟩) (r : Fin R) :
    row2 (broadcastTo ⟨2, ![R, N]⟩ (shapeCast ⟨2, ![1, N]⟩ b hc) hb) r = vec b := by
  funext n
  show broadcastTo ⟨2, ![R, N]⟩ (shapeCast ⟨2, ![1, N]⟩ b hc) hb (ix2 r n) = b (ix1 n)
  rw [broadcastTo_1b_ab_apply, shapeCast_a_1a_apply]

/-- The entrywise sum acts row by row. -/
theorem addf_row {R N : ℕ} (a b : FVec Ideal ⟨2, ![R, N]⟩ .f32) (r : Fin R) :
    row2 (addf a b) r = fun n => row2 a r n + row2 b r n := rfl

/-- The entrywise `tanh` acts row by row. -/
theorem tanh_row {R N : ℕ} (a : FVec Ideal ⟨2, ![R, N]⟩ .f32) (r : Fin R) :
    row2 (tanh a) r = fun n => Ideal.tanh (row2 a r n) := rfl

/-- A product with a transposed weight plus a repeated bias is `affine` on each row. -/
theorem affine_row {R K N : ℕ} (W : Fin N → Fin K → EReal) (b : Fin N → EReal) (h : Fin K → EReal)
    (a c : FVec Ideal ⟨2, ![R, N]⟩ .f32) (r : Fin R) (ha : row2 a r = lin W h) (hc : row2 c r = b) :
    row2 (addf a c) r = affine W b h := by
  rw [addf_row, ha, hc]; rfl

/-- And with `tanh` on top, `layer`. -/
theorem layer_row {R K N : ℕ} (W : Fin N → Fin K → EReal) (b : Fin N → EReal) (h : Fin K → EReal)
    (a c : FVec Ideal ⟨2, ![R, N]⟩ .f32) (r : Fin R) (ha : row2 a r = lin W h) (hc : row2 c r = b) :
    row2 (tanh (addf a c)) r = layer W b h := by
  rw [tanh_row, affine_row W b h a c r ha hc]; rfl

end Cert.LibDenseRows

end
-- ==== Proof.LibSageRows.lean ====
/-
  A mean-aggregation graph layer read one row at a time, over the extended reals.

  A node with feature row `h` and aggregated neighbour row `a`, both of length `K`, is sent to
  `sage Wl b Wr a h = a · Wlᵀ + b + h · Wrᵀ`, a row of length `N`: entry `n` is
  `(∑ₖ aₖ · Wlₙₖ) + bₙ + ∑ₖ hₖ · Wrₙₖ`, the sums grouped in this order.

  The lemmas say that the two ways such a layer is spelt act on each row by this map:
  * a matrix product whose two operands are both contracted along their SECOND axis, accumulated into zero
    (`matmulNT_row`: entry `(r, n)` is `0 + ∑ₖ x(r, k) · w(n, k)`, no transpose is ever formed);
  * the host's product with the weight transposed first (`dotGeneralT_row`: entry `(r, n)` is
    `∑ₖ x(r, k) · wᵀ(k, n)` and `wᵀ(k, n) = w(n, k)`);
  * a bias laid out as one row by a broadcast along the second axis and repeated down the rows (`hostBias_row`);
  * the sum of the three terms (`sage_row_of`).
  Each product is stated for any two-axis dot record whose operand indices are the plain ones, given as four
  hypotheses, so that it applies to each printed record.
  `sageArr` is the layer on a whole array of nodes, row by row, and `hostSage_eq` says that the host's spelling —
  two products with transposed weights and the broadcast bias added between them — is that array.
-/
import Idealize.ShloMosaic.PureOps.Ideal.Laws
import Idealize.ShloMosaic.Lib.ValueIdx
import Idealize.ShloMosaic.Lib.ValueLayout
import Idealize.ShloMosaic.Lib.Pipeline.Value
import proofs.«104872_j64819646431531_1_alg».proof.Proof.LibDenseRows

noncomputable section

namespace Cert.LibSageRows

open Idealize.ShloMosaic Idealize.ShloMosaic.ValueIdx Cert.LibDenseRows

/-- One node of the layer: the aggregated row through `Wl`, plus the bias, plus the node's own row through `Wr`. -/
def sage {K N : ℕ} (Wl : Fin N → Fin K → EReal) (b : Fin N → EReal) (Wr : Fin N → Fin K → EReal)
    (a h : Fin K → EReal) : Fin N → EReal := fun n => lin Wl a n + b n + lin Wr h n

/-- Row `r` of a product that contracts the second axis of BOTH operands, accumulated into zero, is `lin w` of
    row `r` of `x`. The dot record `d` is any whose contraction has one axis of extent `K` and whose operand
    indices at output `(r, n)` and contraction position `k` are `(r, k)` on the left and `(n, k)` on the right. -/
theorem matmulNT_row {R K N : ℕ} {φ₁ φ₂ : FTy} (d : DotDims ⟨2, ![R, K]⟩ ⟨2, ![N, K]⟩ ⟨2, ![R, N]⟩)
    (hrank : d.contr.rank = 1) (hsize : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (j 1).val)
    (hr1 : ∀ (j : (⟨2, ![R, N]⟩ : Shape).Idx) (q : d.contr.Idx), (d.rhsIdx j q 1).val = (q ⟨0, by omega⟩).val)
    (x : FVec Ideal ⟨2, ![R, K]⟩ φ₁) (w : FVec Ideal ⟨2, ![N, K]⟩ φ₂) (r : Fin R) :
    row2 (matmul d none x w (constant (F := Ideal) ⟨2, ![R, N]⟩ .f32 0x00000000#32)) r = lin (mat w) (row2 x r) := by
  funext n
  show FloatOps.matmul d none x w (constant (F := Ideal) ⟨2, ![R, N]⟩ .f32 0x00000000#32) (ix2 r n)
    = ∑ k : Fin K, x (ix2 r k) * w (ix2 n k)
  rw [Ideal.matmul_constant_zero_apply, ← Equiv.sum_comp (contrEquiv1 d K hrank hsize).symm]
  refine Finset.sum_congr rfl fun k _ => ?_
  have hk := contrEquiv1_symm_val d K hrank hsize k
  have el : d.lhsIdx (ix2 r n) ((contrEquiv1 d K hrank hsize).symm k) = ix2 r k := funext fun a => Fin.ext (by
    match a with
    | ⟨0, _⟩ => exact hl0 _ _
    | ⟨1, _⟩ => exact (hl1 _ _).trans hk)
  have er : d.rhsIdx (ix2 r n) ((contrEquiv1 d K hrank hsize).symm k) = ix2 n k := funext fun a => Fin.ext (by
    match a with
    | ⟨0, _⟩ => exact hr0 _ _
    | ⟨1, _⟩ => exact (hr1 _ _).trans hk)
  rw [el, er]

/-- Row `r` of the host's product of `x` with the TRANSPOSE of `w` is `lin w` of row `r` of `x`. The dot record
    `d` is any whose contraction has one axis of extent `K` and whose operand indices at output `(r, n)` and
    contraction position `k` are `(r, k)` on the left and `(k, n)` on the right. -/
theorem dotGeneralT_row {R K N : ℕ} (d : DotDims ⟨2, ![R, K]⟩ ⟨2, ![K, N]⟩ ⟨2, ![R, N]⟩)
    (hrank : d.contr.rank = 1) (hsize : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ .f32) (w : FVec Ideal ⟨2, ![N, K]⟩ .f32)
    (ht : (⟨2, ![N, K]⟩ : Shape).Transposes [1, 0] ⟨2, ![K, N]⟩) (r : Fin R) :
    row2 (Host.dotGeneral d none x (transpose ⟨2, ![K, N]⟩ [1, 0] w ht)) r = lin (mat w) (row2 x r) := by
  funext n
  show Host.dotGeneral d none x (transpose ⟨2, ![K, N]⟩ [1, 0] w ht) (ix2 r n) = ∑ k : Fin K, x (ix2 r k) * w (ix2 n k)
  simp only [Host.dotGeneral]
  rw [Ideal.dotGeneral_apply, ← Equiv.sum_comp (contrEquiv1 d K hrank hsize).symm]
  refine Finset.sum_congr rfl fun k _ => ?_
  have hk := contrEquiv1_symm_val d K hrank hsize k
  have el : d.lhsIdx (ix2 r n) ((contrEquiv1 d K hrank hsize).symm k) = ix2 r k := funext fun a => Fin.ext (by
    match a with
    | ⟨0, _⟩ => exact hl0 _ _
    | ⟨1, _⟩ => exact (hl1 _ _).trans hk)
  have er : d.rhsIdx (ix2 r n) ((contrEquiv1 d K hrank hsize).symm k) = ix2 k n := funext fun a => Fin.ext (by
    match a with
    | ⟨0, _⟩ => exact (hr0 _ _).trans hk
    | ⟨1, _⟩ => exact hr1 _ _)
  rw [el, er, transpose_ix2_apply]

/-- A bias vector laid out as one row `[1, N]` (its axis sent to the second) and then repeated down `R` rows:
    every row is the bias. -/
theorem hostBias_row {R N : ℕ} {α : Type} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  rw [broadcastInDim_apply ![0, 1] h2 _ (ix2 r n) (ix2 (0 : Fin 1) n) (fun a => by
    match a with
    | ⟨0, _⟩ => show (0 : ℕ) = if (1 : ℕ) = 1 then 0 else r.val; rw [if_pos rfl]
    | ⟨1, _⟩ => show n.val = if N = 1 then 0 else n.val; split <;> [(have := n.isLt; omega); rfl])]
  exact broadcastInDim_apply ![1] h1 b (ix2 (0 : Fin 1) n) (ix1 n) (fun a => by
    match a with
    | ⟨0, _⟩ => show n.val = if N = 1 then 0 else n.val; split <;> [(have := n.isLt; omega); rfl])

/-- Three arrays whose row `r` are the aggregated product, the bias and the node's own product add up, in that
    grouping, to `sage` on row `r`. -/
theorem sage_row_of {R K N : ℕ} (A B C : (⟨2, ![R, N]⟩ : Shape).Idx → EReal) (r : Fin R)
    (Wl : Fin N → Fin K → EReal) (b : Fin N → EReal) (Wr : Fin N → Fin K → EReal) (a h : Fin K → EReal)
    (hA : row2 A r = lin Wl a) (hB : row2 B r = b) (hC : row2 C r = lin Wr h) :
    (fun n => A (ix2 r n) + B (ix2 r n) + C (ix2 r n)) = sage Wl b Wr a h := by
  funext n
  show row2 A r n + row2 B r n + row2 C r n = _
  rw [hA, hB, hC]; rfl

/-- The layer on a whole array of `R` nodes: row `r` of the result is `sage` of row `r` of the aggregated array `a`
    and row `r` of the node array `x`. -/
def sageArr {R K N : ℕ} (x a : (⟨2, ![R, K]⟩ : Shape).Idx → EReal) (Wl : (⟨2, ![N, K]⟩ : Shape).Idx → EReal)
    (b : (⟨1, ![N]⟩ : Shape).Idx → EReal) (Wr : (⟨2, ![N, K]⟩ : Shape).Idx → EReal) :
    (⟨2, ![R, N]⟩ : Shape).Idx → EReal :=
  fun i => sage (mat Wl) (vec b) (mat Wr) (row2 a (i 0)) (row2 x (i 0)) (i 1)

/-- The host's spelling of the layer — `a · Wlᵀ` by a product with the transposed weight, plus the bias broadcast to
    every row, plus `x · Wrᵀ` likewise — is `sageArr`. -/
theorem hostSage_eq {R K N : ℕ} (d : DotDims ⟨2, ![R, K]⟩ ⟨2, ![K, N]⟩ ⟨2, ![R, N]⟩)
    (hrank : d.contr.rank = 1) (hsize : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x a : FVec Ideal ⟨2, ![R, K]⟩ .f32) (Wl Wr : FVec Ideal ⟨2, ![N, K]⟩ .f32) (b : FVec Ideal ⟨1, ![N]⟩ .f32)
    (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![R, N]⟩ ![0, 1]) :
    addf (addf (Host.dotGeneral d none a (transpose ⟨2, ![K, N]⟩ [1, 0] Wl ht))
        (broadcastInDim ⟨2, ![R, N]⟩ ![0, 1] h2 (broadcastInDim ⟨2, ![1, N]⟩ ![1] h1 b)))
      (Host.dotGeneral d none x (transpose ⟨2, ![K, N]⟩ [1, 0] Wr ht)) = sageArr x a Wl b Wr := by
  funext i
  obtain ⟨r, n, rfl⟩ : ∃ (r : Fin R) (n : Fin N), i = ix2 r n := ⟨i 0, i 1, eq_ix2 i⟩
  have hB : row2 (broadcastInDim ⟨2, ![R, N]⟩ ![0, 1] h2 (broadcastInDim ⟨2, ![1, N]⟩ ![1] h1 b)) r = vec b :=
    funext fun n => hostBias_row b h1 h2 r n
  exact congrFun (sage_row_of _ _ _ r (mat Wl) (vec b) (mat Wr) (row2 a r) (row2 x r)
    (dotGeneralT_row d hrank hsize hl0 hl1 hr0 hr1 a Wl ht r) hB
    (dotGeneralT_row d hrank hsize hl0 hl1 hr0 hr1 x Wr ht r)) n

/-- A block of `B` consecutive rows starting at row `t · B`: if the block's rows are the arrays' rows there, `sage`
    on row `p` of the block is `sageArr` at row `t · B + p`. -/
theorem sageArr_of_block {R B K N : ℕ} (X A : (⟨2, ![R, K]⟩ : Shape).Idx → EReal)
    (Wl : (⟨2, ![N, K]⟩ : Shape).Idx → EReal) (b : (⟨1, ![N]⟩ : Shape).Idx → EReal) (Wr : (⟨2, ![N, K]⟩ : Shape).Idx → EReal)
    (x a : (⟨2, ![B, K]⟩ : Shape).Idx → EReal) (wl wr : (⟨2, ![N, K]⟩ : Shape).Idx → EReal) (bb : (⟨1, ![N]⟩ : Shape).Idx → EReal)
    (r : Fin R) (p : Fin B) (n : Fin N)
    (hx : ∀ k, x (ix2 p k) = X (ix2 r k)) (ha : ∀ k, a (ix2 p k) = A (ix2 r k))
    (hwl : wl = Wl) (hwr : wr = Wr) (hb : bb = b) :
    sage (mat wl) (vec bb) (mat wr) (row2 a p) (row2 x p) n = sageArr X A Wl b Wr (ix2 r n) := by
  subst hwl hwr hb
  show _ = sage (mat wl) (vec bb) (mat wr) (row2 A r) (row2 X r) n
  rw [show row2 a p = row2 A r from funext ha, show row2 x p = row2 X r from funext hx]

end Cert.LibSageRows

end
-- ==== Proof.KernelBody.lean ====
/-
  What one grid point of each layer computes, read one row at a time at the exact values.

  A point holds a block of 5000 node rows `x`, the same rows of the aggregated array `a`, and the whole weights
  `Wl`, `b`, `Wr`. The first layer's body forms `a · Wlᵀ` and `x · Wrᵀ` by two products that contract the second
  axis of both operands, into zero accumulators (the operands' change of float format is the identity at the exact
  values), adds the bias repeated down the rows between them, and clips below at zero: row `p` of what it stores is
  `max (sage Wl b Wr aₚ xₚ) 0`. The second layer's body is the same without the clip.
-/
import proofs.«104872_j64819646431531_1_alg».proof.Proof.Gen.KernelIdeal.Skeleton
import proofs.«104872_j64819646431531_1_alg».proof.Proof.LibSageRows

noncomputable section

namespace Cert.KernelIdeal.Body

open Idealize.ShloMosaic Idealize.ShloMosaic.ValueIdx Cert.LibDenseRows Cert.LibSageRows Cert.KernelIdeal Cert.KernelIdeal.Gen

/-! ## The two dot records: left operand at `(r, k)`, right operand at `(n, k)` -/

abbrev dotA := dot_S5000x64_S128x64_S5000x128_1_1_0_0_n_n
abbrev dotB := dot_S5000x128_S64x128_S5000x64_1_1_0_0_n_n

theorem dotA_l0 (j : S5000x128.Idx) (q : dotA.contr.Idx) : (dotA.lhsIdx j q 0).val = (j 0).val := by
  unfold DotDims.lhsIdx
  rw [dif_neg (show ¬(0 : Fin S5000x64.rank) ∈ dotA.lhsBatch by decide), dif_pos (show (0 : Fin S5000x64.rank) ∈ dotA.lhsNonContracting by decide)]
  rfl
theorem dotA_l1 (j : S5000x128.Idx) (q : dotA.contr.Idx) : (dotA.lhsIdx j q 1).val = (q ⟨0, by decide⟩).val :=
  dotA.lhsIdx_val_of_single rfl j q
theorem dotA_r0 (j : S5000x128.Idx) (q : dotA.contr.Idx) : (dotA.rhsIdx j q 0).val = (j 1).val := by
  unfold DotDims.rhsIdx
  rw [dif_neg (show ¬(0 : Fin S128x64.rank) ∈ dotA.rhsBatch by decide), dif_pos (show (0 : Fin S128x64.rank) ∈ dotA.rhsNonContracting by decide)]
  rfl
theorem dotA_r1 (j : S5000x128.Idx) (q : dotA.contr.Idx) : (dotA.rhsIdx j q 1).val = (q ⟨0, by decide⟩).val :=
  dotA.rhsIdx_val_of_single rfl j q

theorem dotB_l0 (j : S5000x64.Idx) (q : dotB.contr.Idx) : (dotB.lhsIdx j q 0).val = (j 0).val := by
  unfold DotDims.lhsIdx
  rw [dif_neg (show ¬(0 : Fin S5000x128.rank) ∈ dotB.lhsBatch by decide), dif_pos (show (0 : Fin S5000x128.rank) ∈ dotB.lhsNonContracting by decide)]
  rfl
theorem dotB_l1 (j : S5000x64.Idx) (q : dotB.contr.Idx) : (dotB.lhsIdx j q 1).val = (q ⟨0, by decide⟩).val :=
  dotB.lhsIdx_val_of_single rfl j q
theorem dotB_r0 (j : S5000x64.Idx) (q : dotB.contr.Idx) : (dotB.rhsIdx j q 0).val = (j 1).val := by
  unfold DotDims.rhsIdx
  rw [dif_neg (show ¬(0 : Fin S64x128.rank) ∈ dotB.rhsBatch by decide), dif_pos (show (0 : Fin S64x128.rank) ∈ dotB.rhsNonContracting by decide)]
  rfl
theorem dotB_r1 (j : S5000x64.Idx) (q : dotB.contr.Idx) : (dotB.rhsIdx j q 1).val = (q ⟨0, by decide⟩).val :=
  dotB.rhsIdx_val_of_single rfl j q

/-! ## The bodies -/

/-- Layer 1 at one point: entry `(p, n)` of the stored block is `max (sage Wl b Wr aₚ xₚ n) 0`, with `x` the
    block of node rows, `a` the block of aggregated rows. -/
theorem pay0_apply (x a : Vec Ideal S5000x64 .f32) (Wl Wr : Vec Ideal S128x64 .f32) (b : Vec Ideal S128 .f32)
    (p : Fin 5000) (n : Fin 128) :
    k0_pay1 (F := Ideal) x a Wl Wr b (ix2 p n)
      = max (sage (mat Wl) (vec b) (mat Wr) (row2 a p) (row2 x p) n) (Ideal.ofBits .f32 0x00000000#32) := by
  have hA := matmulNT_row dotA rfl rfl dotA_l0 dotA_l1 dotA_r0 dotA_r1
    (truncf .bf16 (shapeCast S5000x64 a shapeCasts_S5000x64_S5000x64) bitsLt_bf16_f32) (truncf .bf16 Wl bitsLt_bf16_f32) p
  have hC := matmulNT_row dotA rfl rfl dotA_l0 dotA_l1 dotA_r0 dotA_r1
    (truncf .bf16 (shapeCast S5000x64 x shapeCasts_S5000x64_S5000x64) bitsLt_bf16_f32) (truncf .bf16 Wr bitsLt_bf16_f32) p
  have hB := bias_row b shapeCasts_S128_S1x128 broadcasts_S1x128_S5000x128 p
  refine Eq.trans (congrArg (fun z => max z (Ideal.ofBits .f32 0x00000000#32))
    (congrFun (sage_row_of _ _ _ p (mat Wl) (vec b) (mat Wr) _ _ hA hB hC) n)) ?_
  rw [shapeCast_self a, shapeCast_self x]
  rfl

/-- Layer 2 at one point: entry `(p, n)` of the stored block is `sage Wl b Wr aₚ xₚ n`. -/
theorem pay1_apply (x a : Vec Ideal S5000x128 .f32) (Wl Wr : Vec Ideal S64x128 .f32) (b : Vec Ideal S64 .f32)
    (p : Fin 5000) (n : Fin 64) :
    k1_pay1 (F := Ideal) x a Wl Wr b (ix2 p n) = sage (mat Wl) (vec b) (mat Wr) (row2 a p) (row2 x p) n := by
  have hA := matmulNT_row dotB rfl rfl dotB_l0 dotB_l1 dotB_r0 dotB_r1
    (truncf .bf16 (shapeCast S5000x128 a shapeCasts_S5000x128_S5000x128) bitsLt_bf16_f32) (truncf .bf16 Wl bitsLt_bf16_f32) p
  have hC := matmulNT_row dotB rfl rfl dotB_l0 dotB_l1 dotB_r0 dotB_r1
    (truncf .bf16 (shapeCast S5000x128 x shapeCasts_S5000x128_S5000x128) bitsLt_bf16_f32) (truncf .bf16 Wr bitsLt_bf16_f32) p
  have hB := bias_row b shapeCasts_S64_S1x64 broadcasts_S1x64_S5000x64 p
  refine Eq.trans (congrFun (sage_row_of _ _ _ p (mat Wl) (vec b) (mat Wr) _ _ hA hB hC) n) ?_
  rw [shapeCast_self a, shapeCast_self x]
  rfl

end Cert.KernelIdeal.Body

end
-- ==== Proof.LibClampLaw.lean ====
/-
  The scale that clamps a row to the unit ball, in its two spellings, on the extended reals.

  A row whose squared Euclidean norm is `s` is multiplied by `1` when its norm is at most `1` and by the reciprocal of
  its norm otherwise. One program tests the squared norm and takes a reciprocal square root,
  `if s > 1 then rsqrt (max s 1) else 1`; the other takes the square root first,
  `if √s > 1 then 1 / max (√s) 1 else 1`. They are one function of `s` on ALL of `[-∞, +∞]`: at `+∞` both are `0`; at a
  real `s > 1` both are `(√s)⁻¹`, the square root being monotone with `√1 = 1`; at a real `s ≤ 1`, at a negative `s`
  (whose square root is the bottom element, not above `1`) and at `-∞` both are `1`.
-/
import Idealize.ShloMosaic.PureOps.Ideal
import Idealize.ShloMosaic.PureOps.Ideal.Laws

noncomputable section

namespace Cert.LibClampLaw

open Idealize.ShloMosaic

/-- The pattern of `1.0` denotes `1`. -/
theorem ofBits_one : Ideal.ofBits .f32 0x3F800000#32 = 1 := by
  simp [Ideal.ofBits, Ideal.ieee, -EReal.coe_mul]; norm_num

/-- The scale from the squared norm: `if s > 1 then rsqrt (max s 1) else 1`. -/
def scaleOfSq (s : EReal) : EReal := Scalar.select (Ideal.cmp .ogt s 1) (Ideal.rsqrt (max s 1)) 1

/-- The scale from the norm `√s`: `if √s > 1 then 1 / max (√s) 1 else 1`. -/
def scaleOfNorm (s : EReal) : EReal :=
  Scalar.select (Ideal.cmp .ogt (Ideal.sqrt s) 1) (Ideal.div 1 (max (Ideal.sqrt s) 1)) 1

theorem sel_one (a b : EReal) : Scalar.select 1#1 a b = a := if_pos rfl
theorem sel_zero (a b : EReal) : Scalar.select 0#1 a b = b := if_neg (by decide)

theorem cmp_ogt_of_lt {x y : EReal} (h : y < x) : Ideal.cmp .ogt x y = 1#1 := by
  simp [Ideal.cmp, h]

theorem cmp_ogt_of_not_lt {x y : EReal} (h : ¬ y < x) : Ideal.cmp .ogt x y = 0#1 := by
  simp [Ideal.cmp, h]

/-- The two spellings agree everywhere on the extended reals. -/
theorem scaleOfSq_eq_scaleOfNorm (s : EReal) : scaleOfSq s = scaleOfNorm s := by
  unfold scaleOfSq scaleOfNorm
  induction s using EReal.rec with
  | bot =>
    have h1 : ¬ (1 : EReal) < ⊥ := not_lt_bot
    rw [show Ideal.sqrt ⊥ = ⊥ from rfl, cmp_ogt_of_not_lt h1, sel_zero, sel_zero]
  | top =>
    have h1 : (1 : EReal) < ⊤ := EReal.coe_lt_top 1
    rw [show Ideal.sqrt ⊤ = ⊤ from rfl, cmp_ogt_of_lt h1, sel_one, sel_one,
      max_eq_left h1.le, show Ideal.rsqrt ⊤ = 0 from rfl]
    simp [Ideal.div]
  | coe r =>
    by_cases hr : 1 < r
    · have hr0 : 0 < r := lt_trans one_pos hr
      have hs : 1 < Real.sqrt r := by
        rw [show (1 : ℝ) = Real.sqrt 1 from Real.sqrt_one.symm]; exact Real.sqrt_lt_sqrt zero_le_one hr
      have hsq : Ideal.sqrt (r : EReal) = (Real.sqrt r : EReal) := by
        show (if r < 0 then ⊥ else (Real.sqrt r : EReal)) = _
        rw [if_neg (not_lt.2 hr0.le)]
      have e1 : (1 : EReal) < (r : EReal) := by exact_mod_cast hr
      have e2 : (1 : EReal) < (Real.sqrt r : EReal) := by exact_mod_cast hs
      rw [hsq, cmp_ogt_of_lt e1, cmp_ogt_of_lt e2, sel_one, sel_one, max_eq_left e1.le, max_eq_left e2.le]
      have hrs : Ideal.rsqrt (r : EReal) = (((Real.sqrt r)⁻¹ : ℝ) : EReal) := by
        show (if r < 0 then ⊥ else if r = 0 then ⊤ else (((Real.sqrt r)⁻¹ : ℝ) : EReal)) = _
        rw [if_neg (not_lt.2 hr0.le), if_neg hr0.ne']
      have hne : (Real.sqrt r : EReal) ≠ 0 := by
        have : Real.sqrt r ≠ 0 := (lt_trans one_pos hs).ne'
        exact_mod_cast this
      rw [hrs, Ideal.div, if_neg hne, one_mul, EReal.coe_inv]
    · have e1 : ¬ (1 : EReal) < (r : EReal) := by exact_mod_cast hr
      rw [cmp_ogt_of_not_lt e1]
      by_cases hneg : r < 0
      · have hsq : Ideal.sqrt (r : EReal) = ⊥ := by
          show (if r < 0 then ⊥ else (Real.sqrt r : EReal)) = _
          rw [if_pos hneg]
        rw [hsq, cmp_ogt_of_not_lt not_lt_bot, sel_zero, sel_zero]
      · have hsq : Ideal.sqrt (r : EReal) = (Real.sqrt r : EReal) := by
          show (if r < 0 then ⊥ else (Real.sqrt r : EReal)) = _
          rw [if_neg hneg]
        have hs : ¬ 1 < Real.sqrt r := by
          rw [not_lt, show (1 : ℝ) = Real.sqrt 1 from Real.sqrt_one.symm]
          exact Real.sqrt_le_sqrt (not_lt.1 hr)
        have e2 : ¬ (1 : EReal) < (Real.sqrt r : EReal) := by exact_mod_cast hs
        rw [hsq, cmp_ogt_of_not_lt e2, sel_zero, sel_zero]

end Cert.LibClampLaw

end
-- ==== Proof.MeanLaw.lean ====
/-
  The mean over a node's incoming edges, in its two spellings, on the extended reals.

  A node's summed messages `x` are divided by `d = max(deg, 1)`, its number of incoming edges but at least one.
  One program forms the reciprocal `1 / d` once and multiplies, `x · (1 / d)`; the other divides, `x / d`.
  Since `d ≥ 1` the divisor is never zero, so neither quotient meets the convention for division by zero, and both are
  `x · d⁻¹` — for EVERY extended real `x` and whatever `deg` is (at `d = +∞` both are `x · 0`). No finiteness of the
  inputs is used.

  `mean_mul_eq_div` is the same for whole arrays: the degree vector is clipped below at one, laid out along two
  successive broadcasts to the shape of the messages, and met entry by entry.
-/
import Idealize.ShloMosaic.PureOps.Ideal
import Idealize.ShloMosaic.PureOps.Ideal.Laws
import proofs.«104872_j64819646431531_1_alg».proof.Proof.LibClampLaw

noncomputable section

namespace Cert.MeanLaw

open Idealize.ShloMosaic

/-- Multiplying by the reciprocal of a number that is at least one is dividing by it. -/
theorem mul_recip_eq_div (x d : EReal) (hd : 1 ≤ d) : x * Ideal.div 1 d = Ideal.div x d := by
  have hne : d ≠ 0 := (lt_of_lt_of_le zero_lt_one hd).ne'
  rw [Ideal.div, Ideal.div, if_neg hne, if_neg hne, one_mul]

/-- The same with the bound spelt as a maximum against the pattern of `1.0`, which denotes `1`. -/
theorem mul_recip_max_one (x a : EReal) :
    x * Ideal.div (Ideal.ofBits .f32 0x3F800000#32) (max a (Ideal.ofBits .f32 0x3F800000#32))
      = Ideal.div x (max a (Ideal.ofBits .f32 0x3F800000#32)) := by
  rw [LibClampLaw.ofBits_one]
  exact mul_recip_eq_div x _ (le_max_right a 1)

/-- Whole arrays: the messages times the broadcast reciprocal of the clipped degree are the messages divided by
    the broadcast clipped degree. The two broadcasts (`dimsA` then `dimsB`) and the shapes are arbitrary. -/
theorem mean_mul_eq_div {s0 s1 s2 s3 : Shape} (X : FVec Ideal s3 .f32) (deg : FVec Ideal s1 .f32)
    (dims0 : Fin s0.rank → Fin s1.rank) (h0 : s0.BroadcastsInDim s1 dims0)
    (dimsA : Fin s1.rank → Fin s2.rank) (hA : s1.BroadcastsInDim s2 dimsA)
    (dimsB : Fin s2.rank → Fin s3.rank) (hB : s2.BroadcastsInDim s3 dimsB) :
    mulf X (broadcastInDim s3 dimsB hB (broadcastInDim s2 dimsA hA
        (Host.divf (broadcastInDim s1 dims0 h0 (constant (F := Ideal) s0 .f32 0x3F800000#32))
          (maximumf deg (broadcastInDim s1 dims0 h0 (constant (F := Ideal) s0 .f32 0x3F800000#32))))))
      = Host.divf X (broadcastInDim s3 dimsB hB (broadcastInDim s2 dimsA hA
          (maximumf deg (broadcastInDim s1 dims0 h0 (constant (F := Ideal) s0 .f32 0x3F800000#32))))) := by
  funext i
  exact mul_recip_max_one (X i) (deg _)

end Cert.MeanLaw

end
-- ==== Proof.SageSpec.lean ====
/-
  The two-layer network as ONE function of the argument arrays, in the kernel program's arrangement.

  The 150000 nodes are the user rows followed by the movie rows (`nodes`). The edge list's first row holds each
  edge's source, its second row its destination (`srcv`, `dstv`). For an array `x` of node rows, `seg` sums, into each
  node, the rows of `x` at the sources of the edges that arrive at it (a gather of rows at the sources, a negative
  source first shifted by the number of nodes, then a scatter-add at the destinations); `clip` is each node's number
  of arriving edges, at least one. The kernel program takes the mean as `seg · (1 / clip)` (`meanMul`), the
  reference as `seg / clip` (`meanDiv`): one function (`meanMul64_eq`, `meanMul128_eq`; the law is MeanLaw's, and
  holds at every extended real).

  A layer sends node `r` with row `xᵣ` and mean row `aᵣ` to `aᵣ · Wlᵀ + b + xᵣ · Wrᵀ`; the first layer clips the
  result below at zero (`layer1`), the second does not (`layer2`). `network` is the second layer of the first.
-/
import proofs.«104872_j64819646431531_1_alg».proof.Proof.Gen.KernelIdeal
import proofs.«104872_j64819646431531_1_alg».proof.Proof.LibSageRows
import proofs.«104872_j64819646431531_1_alg».proof.Proof.MeanLaw

noncomputable section

namespace Cert.Sage

open Idealize.ShloMosaic Cert.LibDenseRows Cert.LibSageRows Cert.KernelIdeal Cert.KernelIdeal.Gen

/-- An array of 32-bit words, an array of exact float values. -/
abbrev IArr (s : Shape) := IVec s 32
abbrev FArr (s : Shape) := FVec Ideal s .f32

/-! ## The layers -/

/-- The first layer on the whole arrays, entry by entry: the affine map of the mean row and the node's own row,
    clipped below at zero. -/
def layer1 (x a : S150000x64.Idx → EReal) (Wl : S128x64.Idx → EReal) (b : S128.Idx → EReal) (Wr : S128x64.Idx → EReal) :
    S150000x128.Idx → EReal :=
  fun i => max (sageArr x a Wl b Wr i) (Ideal.ofBits .f32 0x00000000#32)

/-- The second layer on the whole arrays: the affine map alone. -/
def layer2 (x a : S150000x128.Idx → EReal) (Wl : S64x128.Idx → EReal) (b : S64.Idx → EReal) (Wr : S64x128.Idx → EReal) :
    S150000x64.Idx → EReal :=
  sageArr x a Wl b Wr

/-! ## The graph side -/

/-- The node rows: users, then movies. -/
def nodes (u : FArr S100000x64) (v : FArr S50000x64) : FArr S150000x64 :=
  concatenate S150000x64 0 [⟨S100000x64, u⟩, ⟨S50000x64, v⟩] concatenates_S100000x64_S50000x64_S150000x64_d0

/-- Each edge's source: the edge list's first row. -/
def srcv (e : IArr S2x1000000) : IArr S1000000 :=
  shapeCast _ (extractStridedSlice S1x1000000 ![0, 0] e slices_S2x1000000_S1x1000000_0_0) shapeCasts_S1x1000000_S1000000

/-- Each edge's destination: the edge list's second row. -/
def dstv (e : IArr S2x1000000) : IArr S1000000 :=
  shapeCast _ (extractStridedSlice S1x1000000 ![1, 0] e slices_S2x1000000_S1x1000000_1_0) shapeCasts_S1x1000000_S1000000

/-- The sources as start words of a row gather: a negative source is shifted by the number of nodes first. -/
def srcCol (s : IArr S1000000) : IArr S1000000x1 :=
  broadcastInDim S1000000x1 ![0] bcast_S1000000_S1000000x1_0
    (select (cmpi .slt s (broadcastInDim S1000000 ![] bcast_S_S1000000 (constantI S_ 32 0#32)))
      (addi s (broadcastInDim S1000000 ![] bcast_S_S1000000 (constantI S_ 32 150000#32))) s)

/-- The destinations as scatter indices. -/
def dstCol (d : IArr S1000000) : IArr S1000000x1 := broadcastInDim S1000000x1 ![0] bcast_S1000000_S1000000x1_0 d

/-- Into each node, the sum of the rows of `x` at the sources of its arriving edges (64 features). -/
def seg64 (s d : IArr S1000000) (x : FArr S150000x64) : FArr S150000x64 :=
  Host.scatterAdd (F := Ideal) scatter_S150000x64_S1000000x1_S1000000x64_1_0_0_1
    (broadcastInDim S150000x64 ![] bcast_S_S150000x64 (constant (F := Ideal) S_ .f32 0x00000000#32)) (dstCol d)
    (Host.gather gather_S150000x64_S1000000x1_S1000000x64_1_0_n_n_0_1_164 x (srcCol s))

/-- The same for 128 features. -/
def seg128 (s d : IArr S1000000) (x : FArr S150000x128) : FArr S150000x128 :=
  Host.scatterAdd (F := Ideal) scatter_S150000x128_S1000000x1_S1000000x128_1_0_0_1
    (broadcastInDim S150000x128 ![] bcast_S_S150000x128 (constant (F := Ideal) S_ .f32 0x00000000#32)) (dstCol d)
    (Host.gather gather_S150000x128_S1000000x1_S1000000x128_1_0_n_n_0_1_1128 x (srcCol s))

/-- Each node's number of arriving edges: ones summed at the destinations. -/
def deg (d : IArr S1000000) : FArr S150000 :=
  Host.scatterAdd (F := Ideal) scatter_S150000_S1000000x1_S1000000_n_0_0_1
    (broadcastInDim S150000 ![] bcast_S_S150000 (constant (F := Ideal) S_ .f32 0x00000000#32)) (dstCol d)
    (broadcastInDim S1000000 ![] bcast_S_S1000000 (constant (F := Ideal) S_ .f32 0x3F800000#32))

/-- The mean as the sum times the reciprocal of the clipped degree. -/
def meanMul64 (s d : IArr S1000000) (x : FArr S150000x64) : FArr S150000x64 :=
  mulf (F := Ideal) (seg64 s d x) (broadcastInDim S150000x64 ![0, 1] bcast_S150000x1_S150000x64_0_1
    (broadcastInDim S150000x1 ![0] bcast_S150000_S150000x1_0
      (Host.divf (F := Ideal) (broadcastInDim S150000 ![] bcast_S_S150000 (constant (F := Ideal) S_ .f32 0x3F800000#32))
        (maximumf (F := Ideal) (deg d) (broadcastInDim S150000 ![] bcast_S_S150000 (constant (F := Ideal) S_ .f32 0x3F800000#32))))))

def meanMul128 (s d : IArr S1000000) (x : FArr S150000x128) : FArr S150000x128 :=
  mulf (F := Ideal) (seg128 s d x) (broadcastInDim S150000x128 ![0, 1] bcast_S150000x1_S150000x128_0_1
    (broadcastInDim S150000x1 ![0] bcast_S150000_S150000x1_0
      (Host.divf (F := Ideal) (broadcastInDim S150000 ![] bcast_S_S150000 (constant (F := Ideal) S_ .f32 0x3F800000#32))
        (maximumf (F := Ideal) (deg d) (broadcastInDim S150000 ![] bcast_S_S150000 (constant (F := Ideal) S_ .f32 0x3F800000#32))))))

/-- The mean as the sum divided by the clipped degree. -/
def meanDiv64 (s d : IArr S1000000) (x : FArr S150000x64) : FArr S150000x64 :=
  Host.divf (F := Ideal) (seg64 s d x) (broadcastInDim S150000x64 ![0, 1] bcast_S150000x1_S150000x64_0_1
    (broadcastInDim S150000x1 ![0] bcast_S150000_S150000x1_0
      (maximumf (F := Ideal) (deg d) (broadcastInDim S150000 ![] bcast_S_S150000 (constant (F := Ideal) S_ .f32 0x3F800000#32)))))

def meanDiv128 (s d : IArr S1000000) (x : FArr S150000x128) : FArr S150000x128 :=
  Host.divf (F := Ideal) (seg128 s d x) (broadcastInDim S150000x128 ![0, 1] bcast_S150000x1_S150000x128_0_1
    (broadcastInDim S150000x1 ![0] bcast_S150000_S150000x1_0
      (maximumf (F := Ideal) (deg d) (broadcastInDim S150000 ![] bcast_S_S150000 (constant (F := Ideal) S_ .f32 0x3F800000#32)))))

/-- The two spellings of the mean are one function: the clipped degree is at least one. -/
theorem meanMul64_eq (s d : IArr S1000000) (x : FArr S150000x64) : meanMul64 s d x = meanDiv64 s d x :=
  MeanLaw.mean_mul_eq_div (seg64 s d x) (deg d) _ bcast_S_S150000 _ bcast_S150000_S150000x1_0 _ bcast_S150000x1_S150000x64_0_1

theorem meanMul128_eq (s d : IArr S1000000) (x : FArr S150000x128) : meanMul128 s d x = meanDiv128 s d x :=
  MeanLaw.mean_mul_eq_div (seg128 s d x) (deg d) _ bcast_S_S150000 _ bcast_S150000_S150000x1_0 _ bcast_S150000x1_S150000x128_0_1

/-! ## The network -/

/-- What the first layer leaves: the hidden rows of all nodes. -/
def hidden (e : IArr S2x1000000) (u : FArr S100000x64) (v : FArr S50000x64)
    (W1l : FArr S128x64) (b1 : FArr S128) (W1r : FArr S128x64) : S150000x128.Idx → EReal :=
  layer1 (nodes u v) (meanMul64 (srcv e) (dstv e) (nodes u v)) W1l b1 W1r

/-- The two layers: the output rows of all nodes. -/
def network (e : IArr S2x1000000) (u : FArr S100000x64) (v : FArr S50000x64)
    (W1l : FArr S128x64) (b1 : FArr S128) (W1r : FArr S128x64)
    (W2l : FArr S64x128) (b2 : FArr S64) (W2r : FArr S64x128) : S150000x64.Idx → EReal :=
  layer2 (hidden e u v W1l b1 W1r) (meanMul128 (srcv e) (dstv e) (hidden e u v W1l b1 W1r)) W2l b2 W2r

end Cert.Sage

end
-- ==== Proof.KernelLayer1.lean ====
/-
  From blocks to the whole array, for the first layer: `max (a · Wlᵀ + b + x · Wrᵀ) 0` over 150000 nodes in 30 blocks of 5000 rows.

  Grid point `t` stages rows `5000·t … 5000·t + 4999` of the node array `x` and of the aggregated array `a`, and the
  whole of `Wl`, `b`, `Wr`; what it writes back is rows `5000·t …` of the result. Entry `(p, n)` of the block it stores
  depends on row `p` of its two input blocks only, which are rows `5000·t + p` of the arrays, so the block is the
  restriction to those rows of ONE function of the whole arrays (`layer1`). Every row `r` lies in block `r / 5000`, so
  the 30 write-backs cover the result, which therefore ends holding that function. All of this at ANY contents `V` the
  region is entered with.
-/
import proofs.«104872_j64819646431531_1_alg».proof.Proof.Gen.KernelIdeal.Frame
import proofs.«104872_j64819646431531_1_alg».proof.Proof.KernelBody
import proofs.«104872_j64819646431531_1_alg».proof.Proof.SageSpec
import Idealize.ShloMosaic.Lib.Pipeline.Value

set_option maxRecDepth 16384

noncomputable section

namespace Cert.KernelIdeal.Layer1

open Idealize.ShloMosaic Idealize.ShloMosaic.TcCoe Idealize.ShloMosaic.ValueIdx Idealize.SL.Sem
open Cert.LibDenseRows Cert.LibSageRows Cert.Sage Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: the row-blocked windows sit at block `t` of their first axis, the
    weights at block `0`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of `layer1` of the arrays as the region finds them. -/
theorem flushed_eq (c : Dev nD) (t : Fin cfg0.N) :
    (dat0 V c).flushed 5 t = ((cfg0.win 5).blk t).view.read (Elt Ideal)
      (layer1 (V c main_v4) (V c main_v25) (V c main_arg3) (V c main_arg4) (V c main_arg5)) := by
  show (cfg0.win 5).cut (grid0.coords t) ((dat0 V c).after 5 t) = _
  rw [after0_5]
  unfold out0_5
  rw [View.canon_unit_zero hz2]
  simp only [View.ld_unit_zero (S := S5000x64) hz2, View.ld_unit_zero (S := S128x64) hz2, View.ld_unit_zero (S := S128) hz1]
  obtain ⟨e00, e01, e10, e11, e20, e21, e30, e40, e41, e50, e51⟩ := idx_facts t
  have ht : t.val < 30 := lt_of_lt_of_eq t.isLt N_0
  funext j
  obtain ⟨p, n, rfl⟩ : ∃ (p : Fin 5000) (n : Fin 128), j = ix2 p n := ⟨j 0, j 1, eq_ix2 j⟩
  have hr : t.val * 5000 + p.val < 150000 := by have := p.isLt; omega
  show k0_pay1 (F := Ideal) (iblk0 V c 0 t) (iblk0 V c 1 t) (iblk0 V c 2 t) (iblk0 V c 4 t) (iblk0 V c 3 t) (ix2 p n)
    = layer1 (V c main_v4) (V c main_v25) (V c main_arg3) (V c main_arg4) (V c main_arg5) (((cfg0.win 5).blk t).view.emb (ix2 p n))
  have hemb : ((cfg0.win 5).blk t).view.emb (ix2 p n) = ix2 (⟨t.val * 5000 + p.val, hr⟩ : Fin 150000) n := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * n.val = n.val; omega
  rw [hemb]
  refine (Body.pay0_apply _ _ _ _ _ p n).trans ?_
  refine congrArg (fun z => max z (Ideal.ofBits .f32 0x00000000#32)) ?_
  refine sageArr_of_block (V c main_v4) (V c main_v25) (V c main_arg3) (V c main_arg4) (V c main_arg5) _ _ _ _ _ ⟨t.val * 5000 + p.val, hr⟩ p n
    (fun k => ?_) (fun k => ?_) ?_ ?_ ?_
  · show V c main_v4 (((cfg0.win 0).blk t).view.emb (ix2 p k)) = V c main_v4 (ix2 ⟨t.val * 5000 + p.val, hr⟩ k)
    refine congrArg (V c main_v4) (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  · show V c main_v25 (((cfg0.win 1).blk t).view.emb (ix2 p k)) = V c main_v25 (ix2 ⟨t.val * 5000 + p.val, hr⟩ k)
    refine congrArg (V c main_v25) (funext fun a => Fin.ext ?_)
    match a with
    | ⟨0, _⟩ => show win0_1.index t (0 : Fin 2) * 5000 + 1 * p.val = t.val * 5000 + p.val; omega
    | ⟨1, _⟩ => show win0_1.index t (1 : Fin 2) * 64 + 1 * k.val = k.val; omega
  · funext y
    show V c main_arg3 (((cfg0.win 2).blk t).view.emb y) = V c main_arg3 y
    refine congrArg (V c main_arg3) (funext fun a => Fin.ext ?_)
    match a with
    | ⟨0, _⟩ => show win0_2.index t (0 : Fin 2) * 128 + 1 * (y 0).val = (y 0).val; omega
    | ⟨1, _⟩ => show win0_2.index t (1 : Fin 2) * 64 + 1 * (y 1).val = (y 1).val; omega
  · funext y
    show V c main_arg5 (((cfg0.win 4).blk t).view.emb y) = V c main_arg5 y
    refine congrArg (V c main_arg5) (funext fun a => Fin.ext ?_)
    match a with
    | ⟨0, _⟩ => show win0_4.index t (0 : Fin 2) * 128 + 1 * (y 0).val = (y 0).val; omega
    | ⟨1, _⟩ => show win0_4.index t (1 : Fin 2) * 64 + 1 * (y 1).val = (y 1).val; omega
  · funext y
    show V c main_arg4 (((cfg0.win 3).blk t).view.emb y) = V c main_arg4 y
    refine congrArg (V c main_arg4) (funext fun a => Fin.ext ?_)
    match a with
    | ⟨0, _⟩ => show win0_3.index t (0 : Fin 1) * 128 + 1 * (y 0).val = (y 0).val; omega

/-- An index of the result is in point `t`'s block iff each coordinate is in the block's range on its axis. -/
theorem mem_blk (t : Fin cfg0.N) (i : S150000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Every index of the result lies in the block of point `(its row) / 5000`, which is written back. -/
theorem cover (i : S150000x128.Idx) : ∃ t : Fin cfg0.N, (cfg0.win 5).flush t = true ∧ i ∈ ((cfg0.win 5).blk t).view.set := by
  have hi0 : (i 0).val < 150000 := (i 0).isLt
  have hi1 : (i 1).val < 128 := (i 1).isLt
  have hN : cfg0.N = 30 := N_0
  let t : Fin cfg0.N := ⟨(i 0).val / 5000, by rw [hN]; omega⟩
  obtain ⟨-, -, -, -, -, -, -, -, -, e50, e51⟩ := idx_facts t
  have htv : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE RESULT ARRAY after the region: `layer1` of the arrays the region was entered with. -/
theorem final (c : Dev nD) :
    (dat0 V c).arrAt 5 cfg0.N = layer1 (V c main_v4) (V c main_v25) (V c main_arg3) (V c main_arg4) (V c main_arg5) :=
  (dat0 V c).arrAt_eq_of_cover 5 _ (fun t _ => flushed_eq V c t) cover

end Cert.KernelIdeal.Layer1

end
-- ==== Proof.KernelLayer2.lean ====
/-
  From blocks to the whole array, for the second layer: `a · Wlᵀ + b + x · Wrᵀ` over 150000 nodes in 30 blocks of 5000 rows.

  Grid point `t` stages rows `5000·t … 5000·t + 4999` of the node array `x` and of the aggregated array `a`, and the
  whole of `Wl`, `b`, `Wr`; what it writes back is rows `5000·t …` of the result. Entry `(p, n)` of the block it stores
  depends on row `p` of its two input blocks only, which are rows `5000·t + p` of the arrays, so the block is the
  restriction to those rows of ONE function of the whole arrays (`layer2`). Every row `r` lies in block `r / 5000`, so
  the 30 write-backs cover the result, which therefore ends holding that function. All of this at ANY contents `V` the
  region is entered with.
-/
import proofs.«104872_j64819646431531_1_alg».proof.Proof.Gen.KernelIdeal.Frame
import proofs.«104872_j64819646431531_1_alg».proof.Proof.KernelBody
import proofs.«104872_j64819646431531_1_alg».proof.Proof.SageSpec
import Idealize.ShloMosaic.Lib.Pipeline.Value

set_option maxRecDepth 16384

noncomputable section

namespace Cert.KernelIdeal.Layer2

open Idealize.ShloMosaic Idealize.ShloMosaic.TcCoe Idealize.ShloMosaic.ValueIdx Idealize.SL.Sem
open Cert.LibDenseRows Cert.LibSageRows Cert.Sage Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: the row-blocked windows sit at block `t` of their first axis, the
    weights at block `0`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of `layer2` of the arrays as the region finds them. -/
theorem flushed_eq (c : Dev nD) (t : Fin cfg1.N) :
    (dat1 V c).flushed 5 t = ((cfg1.win 5).blk t).view.read (Elt Ideal)
      (layer2 (V c main_v26) (V c main_v38) (V c main_arg6) (V c main_arg7) (V c main_arg8)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S64x128) hz2, View.ld_unit_zero (S := S64) hz1]
  obtain ⟨e00, e01, e10, e11, e20, e21, e30, e40, e41, e50, e51⟩ := idx_facts t
  have ht : t.val < 30 := lt_of_lt_of_eq t.isLt N_1
  funext j
  obtain ⟨p, n, rfl⟩ : ∃ (p : Fin 5000) (n : Fin 64), j = ix2 p n := ⟨j 0, j 1, eq_ix2 j⟩
  have hr : t.val * 5000 + p.val < 150000 := by have := p.isLt; omega
  show k1_pay1 (F := Ideal) (iblk1 V c 0 t) (iblk1 V c 1 t) (iblk1 V c 2 t) (iblk1 V c 4 t) (iblk1 V c 3 t) (ix2 p n)
    = layer2 (V c main_v26) (V c main_v38) (V c main_arg6) (V c main_arg7) (V c main_arg8) (((cfg1.win 5).blk t).view.emb (ix2 p n))
  have hemb : ((cfg1.win 5).blk t).view.emb (ix2 p n) = ix2 (⟨t.val * 5000 + p.val, hr⟩ : Fin 150000) n := by
    funext a; apply Fin.ext
    match a with
    | ⟨0, _⟩ => show win1_5.index t (0 : Fin 2) * 5000 + 1 * p.val = t.val * 5000 + p.val; omega
    | ⟨1, _⟩ => show win1_5.index t (1 : Fin 2) * 64 + 1 * n.val = n.val; omega
  rw [hemb]
  refine (Body.pay1_apply _ _ _ _ _ p n).trans ?_

  refine sageArr_of_block (V c main_v26) (V c main_v38) (V c main_arg6) (V c main_arg7) (V c main_arg8) _ _ _ _ _ ⟨t.val * 5000 + p.val, hr⟩ p n
    (fun k => ?_) (fun k => ?_) ?_ ?_ ?_
  · show V c main_v26 (((cfg1.win 0).blk t).view.emb (ix2 p k)) = V c main_v26 (ix2 ⟨t.val * 5000 + p.val, hr⟩ k)
    refine congrArg (V c main_v26) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · show V c main_v38 (((cfg1.win 1).blk t).view.emb (ix2 p k)) = V c main_v38 (ix2 ⟨t.val * 5000 + p.val, hr⟩ k)
    refine congrArg (V c main_v38) (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  · funext y
    show V c main_arg6 (((cfg1.win 2).blk t).view.emb y) = V c main_arg6 y
    refine congrArg (V c main_arg6) (funext fun a => Fin.ext ?_)
    match a with
    | ⟨0, _⟩ => show win1_2.index t (0 : Fin 2) * 64 + 1 * (y 0).val = (y 0).val; omega
    | ⟨1, _⟩ => show win1_2.index t (1 : Fin 2) * 128 + 1 * (y 1).val = (y 1).val; omega
  · funext y
    show V c main_arg8 (((cfg1.win 4).blk t).view.emb y) = V c main_arg8 y
    refine congrArg (V c main_arg8) (funext fun a => Fin.ext ?_)
    match a with
    | ⟨0, _⟩ => show win1_4.index t (0 : Fin 2) * 64 + 1 * (y 0).val = (y 0).val; omega
    | ⟨1, _⟩ => show win1_4.index t (1 : Fin 2) * 128 + 1 * (y 1).val = (y 1).val; omega
  · funext y
    show V c main_arg7 (((cfg1.win 3).blk t).view.emb y) = V c main_arg7 y
    refine congrArg (V c main_arg7) (funext fun a => Fin.ext ?_)
    match a with
    | ⟨0, _⟩ => show win1_3.index t (0 : Fin 1) * 64 + 1 * (y 0).val = (y 0).val; omega

/-- An index of the result is in point `t`'s block iff each coordinate is in the block's range on its axis. -/
theorem mem_blk (t : Fin cfg1.N) (i : S150000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v39).slice (win1_5.rect t)).set ↔ _
  rw [View.set_slice_whole, Rect.mem_set_unit]
  exact Iff.rfl

/-- Every index of the result lies in the block of point `(its row) / 5000`, which is written back. -/
theorem cover (i : S150000x64.Idx) : ∃ t : Fin cfg1.N, (cfg1.win 5).flush t = true ∧ i ∈ ((cfg1.win 5).blk t).view.set := by
  have hi0 : (i 0).val < 150000 := (i 0).isLt
  have hi1 : (i 1).val < 64 := (i 1).isLt
  have hN : cfg1.N = 30 := N_1
  let t : Fin cfg1.N := ⟨(i 0).val / 5000, by rw [hN]; omega⟩
  obtain ⟨-, -, -, -, -, -, -, -, -, e50, e51⟩ := idx_facts t
  have htv : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE RESULT ARRAY after the region: `layer2` of the arrays the region was entered with. -/
theorem final (c : Dev nD) :
    (dat1 V c).arrAt 5 cfg1.N = layer2 (V c main_v26) (V c main_v38) (V c main_arg6) (V c main_arg7) (V c main_arg8) :=
  (dat1 V c).arrAt_eq_of_cover 5 _ (fun t _ => flushed_eq V c t) cover

end Cert.KernelIdeal.Layer2

end
-- ==== Proof.KernelHost.lean ====
/-
  The kernel program's buffers followed from the launch memory to its two results, at the exact values.

  Before the first region the host forms the node rows (users, then movies) and their mean over arriving edges, the
  sum times the reciprocal of the clipped degree; the first region is entered with these and the first layer's
  weights, and leaves the hidden rows (KernelLayer1: the first layer of what it was entered with). Between the regions
  the host forms the mean of the hidden rows the same way, reusing the reciprocal column; the second region leaves
  the second layer of the hidden rows and their mean (KernelLayer2). The two results are the first 100000 and the
  last 50000 rows of that: the two slices of `Sage.network` of the argument arrays.
-/
import proofs.«104872_j64819646431531_1_alg».proof.Proof.Gen.KernelIdeal.Frame
import proofs.«104872_j64819646431531_1_alg».proof.Proof.KernelLayer1
import proofs.«104872_j64819646431531_1_alg».proof.Proof.KernelLayer2
import proofs.«104872_j64819646431531_1_alg».proof.Proof.SageSpec
import Idealize.ShloMosaic.Lib.StableHlo.Run

set_option maxRecDepth 16384

noncomputable section

namespace Cert.KernelIdeal.HostVal

open Idealize.ShloMosaic Idealize.ShloMosaic.TcCoe Idealize.SL.Sem Idealize.ShloMosaic.StableHlo
open Cert.Sage Cert.KernelIdeal Cert.KernelIdeal.Gen

variable (m : (ℓ : Loc nD τ sig) → Buf (Elt Ideal) ℓ) (ρ : Dev nD → PrngReg) (c : Dev nD)

/-! ## Before the first region -/

theorem W1_v1 : W1 m ρ c (Proc.devRef .tc main_v1) = srcv (m ((c : Thread nD τ).loc main_arg0)) := by
  dsimp only [W1, hostOps0]; after_results_simp; rfl
theorem W1_v3 : W1 m ρ c (Proc.devRef .tc main_v3) = dstv (m ((c : Thread nD τ).loc main_arg0)) := by
  dsimp only [W1, hostOps0]; after_results_simp; rfl
theorem W1_v4 : W1 m ρ c (Proc.devRef .tc main_v4) = nodes (m ((c : Thread nD τ).loc main_arg1)) (m ((c : Thread nD τ).loc main_arg2)) := by
  dsimp only [W1, hostOps0]; after_results_simp; rfl
/-- The reciprocal of the clipped degree, as a column. -/
theorem W1_v13 : W1 m ρ c (Proc.devRef .tc main_v13) = broadcastInDim S150000x1 ![0] bcast_S150000_S150000x1_0
    (Host.divf (broadcastInDim S150000 ![] bcast_S_S150000 (constant (F := Ideal) S_ .f32 0x3F800000#32))
      (maximumf (deg (dstv (m ((c : Thread nD τ).loc main_arg0)))) (broadcastInDim S150000 ![] bcast_S_S150000 (constant (F := Ideal) S_ .f32 0x3F800000#32)))) := by
  dsimp only [W1, hostOps0]; after_results_simp; rfl
theorem W1_v25 : W1 m ρ c (Proc.devRef .tc main_v25)
    = meanMul64 (srcv (m ((c : Thread nD τ).loc main_arg0))) (dstv (m ((c : Thread nD τ).loc main_arg0))) (nodes (m ((c : Thread nD τ).loc main_arg1)) (m ((c : Thread nD τ).loc main_arg2))) := by
  dsimp only [W1, hostOps0]; after_results_simp; rfl
theorem W1_arg3 : W1 m ρ c (Proc.devRef .tc main_arg3) = (m ((c : Thread nD τ).loc main_arg3)) := by
  dsimp only [W1, hostOps0]; after_results_simp
theorem W1_arg4 : W1 m ρ c (Proc.devRef .tc main_arg4) = (m ((c : Thread nD τ).loc main_arg4)) := by
  dsimp only [W1, hostOps0]; after_results_simp
theorem W1_arg5 : W1 m ρ c (Proc.devRef .tc main_arg5) = (m ((c : Thread nD τ).loc main_arg5)) := by
  dsimp only [W1, hostOps0]; after_results_simp
theorem W1_arg6 : W1 m ρ c (Proc.devRef .tc main_arg6) = (m ((c : Thread nD τ).loc main_arg6)) := by
  dsimp only [W1, hostOps0]; after_results_simp
theorem W1_arg7 : W1 m ρ c (Proc.devRef .tc main_arg7) = (m ((c : Thread nD τ).loc main_arg7)) := by
  dsimp only [W1, hostOps0]; after_results_simp
theorem W1_arg8 : W1 m ρ c (Proc.devRef .tc main_arg8) = (m ((c : Thread nD τ).loc main_arg8)) := by
  dsimp only [W1, hostOps0]; after_results_simp

/-! ## After the first region -/

/-- The first region leaves the hidden rows. -/
theorem W2_v26 : W2 m ρ c (Proc.devRef .tc main_v26)
    = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 5).trans ((Layer1.final (V1 m ρ) c).trans ?_)
  show layer1 (W1 m ρ c (Proc.devRef .tc main_v4)) (W1 m ρ c (Proc.devRef .tc main_v25)) (W1 m ρ c (Proc.devRef .tc main_arg3))
    (W1 m ρ c (Proc.devRef .tc main_arg4)) (W1 m ρ c (Proc.devRef .tc main_arg5)) = _
  rw [W1_v4, W1_v25, W1_arg3, W1_arg4, W1_arg5]
  rfl

theorem W2_v1 : W2 m ρ c (Proc.devRef .tc main_v1) = srcv (m ((c : Thread nD τ).loc main_arg0)) :=
  (W2_of_ne m ρ c main_v1 (by decide)).trans (W1_v1 m ρ c)
theorem W2_v3 : W2 m ρ c (Proc.devRef .tc main_v3) = dstv (m ((c : Thread nD τ).loc main_arg0)) :=
  (W2_of_ne m ρ c main_v3 (by decide)).trans (W1_v3 m ρ c)
theorem W2_v13 : W2 m ρ c (Proc.devRef .tc main_v13) = broadcastInDim S150000x1 ![0] bcast_S150000_S150000x1_0
    (Host.divf (broadcastInDim S150000 ![] bcast_S_S150000 (constant (F := Ideal) S_ .f32 0x3F800000#32))
      (maximumf (deg (dstv (m ((c : Thread nD τ).loc main_arg0)))) (broadcastInDim S150000 ![] bcast_S_S150000 (constant (F := Ideal) S_ .f32 0x3F800000#32)))) :=
  (W2_of_ne m ρ c main_v13 (by decide)).trans (W1_v13 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)

/-! ## Before the second region -/

theorem W3_v26 : W3 m ρ c (Proc.devRef .tc main_v26) = W2 m ρ c (Proc.devRef .tc main_v26) := by
  dsimp only [W3, hostOps1]; after_results_simp
theorem W3_v38 : W3 m ρ c (Proc.devRef .tc main_v38)
    = meanMul128 (srcv (m ((c : Thread nD τ).loc main_arg0))) (dstv (m ((c : Thread nD τ).loc main_arg0))) (W2 m ρ c (Proc.devRef .tc main_v26)) := by
  dsimp only [W3, hostOps1]; after_results_simp
  rw [W2_v1, W2_v3, W2_v13]
  rfl
theorem W3_arg6 : W3 m ρ c (Proc.devRef .tc main_arg6) = (m ((c : Thread nD τ).loc main_arg6)) := by
  dsimp only [W3, hostOps1]; after_results_simp; exact W2_arg6 m ρ c
theorem W3_arg7 : W3 m ρ c (Proc.devRef .tc main_arg7) = (m ((c : Thread nD τ).loc main_arg7)) := by
  dsimp only [W3, hostOps1]; after_results_simp; exact W2_arg7 m ρ c
theorem W3_arg8 : W3 m ρ c (Proc.devRef .tc main_arg8) = (m ((c : Thread nD τ).loc main_arg8)) := by
  dsimp only [W3, hostOps1]; after_results_simp; exact W2_arg8 m ρ c

/-! ## After the second region, and the results -/

/-- The second region leaves the network's output rows. -/
theorem W4_v39 : W4 m ρ c (Proc.devRef .tc main_v39) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((Layer2.final (V3 m ρ) c).trans ?_)
  show layer2 (W3 m ρ c (Proc.devRef .tc main_v26)) (W3 m ρ c (Proc.devRef .tc main_v38)) (W3 m ρ c (Proc.devRef .tc main_arg6))
    (W3 m ρ c (Proc.devRef .tc main_arg7)) (W3 m ρ c (Proc.devRef .tc main_arg8)) = _
  rw [W3_v38, W3_v26, W3_arg6, W3_arg7, W3_arg8, W2_v26]
  rfl

/-- The first result: the users' rows. -/
theorem W5_v40 : W5 m ρ c (Proc.devRef .tc main_v40)
    = extractStridedSlice S100000x64 ![0, 0] (network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) slices_S150000x64_S100000x64_0_0 := by
  dsimp only [W5, hostOps2]; after_results_simp
  rw [W4_v39]

/-- The second result: the movies' rows. -/
theorem W5_v41 : W5 m ρ c (Proc.devRef .tc main_v41)
    = extractStridedSlice S50000x64 ![100000, 0] (network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) slices_S150000x64_S50000x64_100000_0 := by
  dsimp only [W5, hostOps2]; after_results_simp
  rw [W4_v39]

end Cert.KernelIdeal.HostVal

end
-- ==== Proof.RefValue.lean ====
/-
  The reference's two results as the slices of one function of the argument arrays, and that function equal to the
  kernel program's.

  The reference spells a layer on the whole node array at once: the mean rows times the TRANSPOSED weight, plus the
  bias broadcast to every row, plus the node rows times the other transposed weight (`refLayer1` with the clip at zero
  on top, `refLayer2` without). Row by row these are the same affine maps as `Sage.layer1` and `Sage.layer2`
  (`refLayer1_eq`, `refLayer2_eq`: a product with a transposed weight contracts the weight's second axis). Its mean
  divides by the clipped degree where the kernel program multiplies by the reciprocal: one function (SageSpec). So the
  reference's network is `Sage.network` (`refNetwork_eq`), and its run's two results are the two slices of it.
-/
import proofs.«104872_j64819646431531_1_alg».proof.Proof.Gen.ReferenceIdeal.Run
import proofs.«104872_j64819646431531_1_alg».proof.Proof.Gen.ReferenceIdeal.Read
import proofs.«104872_j64819646431531_1_alg».proof.Proof.SageSpec

set_option maxRecDepth 16384

noncomputable section

namespace Cert.ReferenceIdeal.RefValue

open Idealize.ShloMosaic Idealize.ShloMosaic.TcCoe Idealize.SL.Sem Cert.LibDenseRows Cert.LibSageRows
open Cert.ReferenceIdeal Cert.ReferenceIdeal.Gen

/-! ## The layers as the reference spells them -/

def refLayer1 (x a : FVec Ideal S150000x64 .f32) (Wl : FVec Ideal S128x64 .f32) (b : FVec Ideal S128 .f32)
    (Wr : FVec Ideal S128x64 .f32) : FVec Ideal S150000x128 .f32 :=
  maximumf (F := Ideal)
    (addf (F := Ideal)
      (addf (F := Ideal)
        (Host.dotGeneral (F := Ideal) dot_S150000x64_S64x128_S150000x128_1_0_0_1_n_n none a
          (transpose S64x128 [1, 0] Wl transposes_S128x64_S64x128_1_0))
        (broadcastInDim S150000x128 ![0, 1] bcast_S1x128_S150000x128_0_1 (broadcastInDim S1x128 ![1] bcast_S128_S1x128_1 b)))
      (Host.dotGeneral (F := Ideal) dot_S150000x64_S64x128_S150000x128_1_0_0_1_n_n none x
        (transpose S64x128 [1, 0] Wr transposes_S128x64_S64x128_1_0)))
    (broadcastInDim S150000x128 ![] bcast_S_S150000x128 (constant (F := Ideal) S_ .f32 0x00000000#32))

def refLayer2 (x a : FVec Ideal S150000x128 .f32) (Wl : FVec Ideal S64x128 .f32) (b : FVec Ideal S64 .f32)
    (Wr : FVec Ideal S64x128 .f32) : FVec Ideal S150000x64 .f32 :=
  addf (F := Ideal)
    (addf (F := Ideal)
      (Host.dotGeneral (F := Ideal) dot_S150000x128_S128x64_S150000x64_1_0_0_1_n_n none a
        (transpose S128x64 [1, 0] Wl transposes_S64x128_S128x64_1_0))
      (broadcastInDim S150000x64 ![0, 1] bcast_S1x64_S150000x64_0_1 (broadcastInDim S1x64 ![1] bcast_S64_S1x64_1 b)))
    (Host.dotGeneral (F := Ideal) dot_S150000x128_S128x64_S150000x64_1_0_0_1_n_n none x
      (transpose S128x64 [1, 0] Wr transposes_S64x128_S128x64_1_0))

theorem refLayer1_eq (x a : FVec Ideal S150000x64 .f32) (Wl : FVec Ideal S128x64 .f32) (b : FVec Ideal S128 .f32)
    (Wr : FVec Ideal S128x64 .f32) : refLayer1 x a Wl b Wr = Cert.Sage.layer1 x a Wl b Wr := by
  unfold refLayer1
  rw [hostSage_eq dot_S150000x64_S64x128_S150000x128_1_0_0_1_n_n rfl rfl Read.lhs_main_v25_0 Read.lhs_main_v25_1
    Read.rhs_main_v25_0 Read.rhs_main_v25_1 x a Wl Wr b transposes_S128x64_S64x128_1_0 bcast_S128_S1x128_1
    bcast_S1x128_S150000x128_0_1]
  rfl

theorem refLayer2_eq (x a : FVec Ideal S150000x128 .f32) (Wl : FVec Ideal S64x128 .f32) (b : FVec Ideal S64 .f32)
    (Wr : FVec Ideal S64x128 .f32) : refLayer2 x a Wl b Wr = Cert.Sage.layer2 x a Wl b Wr := by
  unfold refLayer2
  exact hostSage_eq dot_S150000x128_S128x64_S150000x64_1_0_0_1_n_n rfl rfl Read.lhs_main_v53_0 Read.lhs_main_v53_1
    Read.rhs_main_v53_0 Read.rhs_main_v53_1 x a Wl Wr b transposes_S64x128_S128x64_1_0 bcast_S64_S1x64_1
    bcast_S1x64_S150000x64_0_1

/-! ## The network as the reference spells it -/

def refHidden (e : Cert.Sage.IArr S2x1000000) (u : Cert.Sage.FArr S100000x64) (v : Cert.Sage.FArr S50000x64)
    (W1l : Cert.Sage.FArr S128x64) (b1 : Cert.Sage.FArr S128) (W1r : Cert.Sage.FArr S128x64) : FVec Ideal S150000x128 .f32 :=
  refLayer1 (Cert.Sage.nodes u v) (Cert.Sage.meanDiv64 (Cert.Sage.srcv e) (Cert.Sage.dstv e) (Cert.Sage.nodes u v)) W1l b1 W1r

def refNetwork (e : Cert.Sage.IArr S2x1000000) (u : Cert.Sage.FArr S100000x64) (v : Cert.Sage.FArr S50000x64)
    (W1l : Cert.Sage.FArr S128x64) (b1 : Cert.Sage.FArr S128) (W1r : Cert.Sage.FArr S128x64)
    (W2l : Cert.Sage.FArr S64x128) (b2 : Cert.Sage.FArr S64) (W2r : Cert.Sage.FArr S64x128) : FVec Ideal S150000x64 .f32 :=
  refLayer2 (refHidden e u v W1l b1 W1r)
    (Cert.Sage.meanDiv128 (Cert.Sage.srcv e) (Cert.Sage.dstv e) (refHidden e u v W1l b1 W1r)) W2l b2 W2r

theorem refHidden_eq (e : Cert.Sage.IArr S2x1000000) (u : Cert.Sage.FArr S100000x64) (v : Cert.Sage.FArr S50000x64)
    (W1l : Cert.Sage.FArr S128x64) (b1 : Cert.Sage.FArr S128) (W1r : Cert.Sage.FArr S128x64) :
    refHidden e u v W1l b1 W1r = Cert.Sage.hidden e u v W1l b1 W1r := by
  unfold refHidden Cert.Sage.hidden
  rw [refLayer1_eq, Cert.Sage.meanMul64_eq]

theorem refNetwork_eq (e : Cert.Sage.IArr S2x1000000) (u : Cert.Sage.FArr S100000x64) (v : Cert.Sage.FArr S50000x64)
    (W1l : Cert.Sage.FArr S128x64) (b1 : Cert.Sage.FArr S128) (W1r : Cert.Sage.FArr S128x64)
    (W2l : Cert.Sage.FArr S64x128) (b2 : Cert.Sage.FArr S64) (W2r : Cert.Sage.FArr S64x128) :
    refNetwork e u v W1l b1 W1r W2l b2 W2r = Cert.Sage.network e u v W1l b1 W1r W2l b2 W2r := by
  unfold refNetwork Cert.Sage.network
  rw [refHidden_eq, refLayer2_eq, Cert.Sage.meanMul128_eq]

/-! ## The run's results -/

variable (m : (ℓ : Loc nD τ sig) → Buf (Elt Ideal) ℓ) (c : Dev nD)

/-- The run's first result is the users' rows of the reference's network. -/
theorem res0_ref : Value.res_out0 (F := Ideal) m c
    = extractStridedSlice S100000x64 ![0, 0] (refNetwork (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) slices_S150000x64_S100000x64_0_0 := by
  show Value.res_main_v60 (F := Ideal) m c = _
  unfold Value.res_main_v60
  rfl

/-- The run's second result is the movies' rows of it. -/
theorem res1_ref : Value.res_out1 (F := Ideal) m c
    = extractStridedSlice S50000x64 ![100000, 0] (refNetwork (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) slices_S150000x64_S50000x64_100000_0 := by
  show Value.res_main_v61 (F := Ideal) m c = _
  unfold Value.res_main_v61
  rfl

/-- And so of `Sage.network`. -/
theorem res0_eq : Value.res_out0 (F := Ideal) m c
    = extractStridedSlice S100000x64 ![0, 0] (Cert.Sage.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) slices_S150000x64_S100000x64_0_0 := by
  rw [res0_ref, refNetwork_eq]

theorem res1_eq : Value.res_out1 (F := Ideal) m c
    = extractStridedSlice S50000x64 ![100000, 0] (Cert.Sage.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) slices_S150000x64_S50000x64_100000_0 := by
  rw [res1_ref, refNetwork_eq]

end Cert.ReferenceIdeal.RefValue

end
-- ==== Proof.lean ====
/-
  A two-layer mean-aggregation graph network on 150000 nodes (100000 users, then 50000 movies; features 64 → 128 → 64)
  and 1000000 edges: the kernel program against its reference, equal at the exact values.

  Both programs form, for every node, the mean of the rows at the sources of its arriving edges — a gather, a
  scatter-add, and the count of arriving edges clipped below at one — by the SAME host operations, and differ there in
  one place: the kernel program multiplies the sum by the reciprocal `1 / max(deg, 1)`, the reference divides by
  `max(deg, 1)`. The divisor is at least one, never zero, so both are the sum times its inverse, at every extended
  real (MeanLaw); the precondition is not used.

  A layer is `mean · Wlᵀ + b + x · Wrᵀ`, the first clipped below at zero. The kernel program computes each layer in a
  region of 30 grid points, 5000 node rows each, by two products that contract the second axis of both operands
  (KernelBody; their operands' change of float format is the identity at the exact values); the blocks are restrictions
  of one function of the whole arrays and cover the result (KernelLayer1, KernelLayer2). The reference transposes the
  weights and takes whole-array products (RefValue). Row by row both are the same sums, in the same grouping.

  The kernel program's run is its generated frame's, with the two results read from the last boundary's contents
  (KernelRun), which are the two row slices of `Sage.network` of the arguments (KernelHost); the reference's generated
  run ends at the same two slices (RefValue). The idealization rewrote no operation, so `preserves` is trivial.
-/
import proofs.«104872_j64819646431531_1_alg».proof.Defs
import proofs.«104872_j64819646431531_1_alg».proof.Proof.Gen.Kernel
import proofs.«104872_j64819646431531_1_alg».proof.Proof.Gen.Kernel.Frame
import proofs.«104872_j64819646431531_1_alg».proof.Proof.Gen.KernelIdeal
import proofs.«104872_j64819646431531_1_alg».proof.Proof.Gen.KernelIdeal.Frame
import proofs.«104872_j64819646431531_1_alg».proof.Proof.Gen.ReferenceIdeal
import proofs.«104872_j64819646431531_1_alg».proof.Proof.Gen.ReferenceIdeal.Run
import proofs.«104872_j64819646431531_1_alg».proof.Proof.Gen.ReferenceIdeal.Read
import proofs.«104872_j64819646431531_1_alg».proof.Proof.Gen.Pre_finite_inputs
import proofs.«104872_j64819646431531_1_alg».proof.Proof.KernelRun
import proofs.«104872_j64819646431531_1_alg».proof.Proof.KernelHost
import proofs.«104872_j64819646431531_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with their results at the two row slices of `Sage.network` of the arguments, which agree. -/
theorem algebraic : Cert.algebraic_KernelIdeal_ReferenceIdeal := by
  intro m ρ m' ρ' _ hagree
  refine ⟨fun c => extractStridedSlice Cert.KernelIdeal.S100000x64 ![0, 0]
      (Cert.Sage.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) Cert.KernelIdeal.Gen.slices_S150000x64_S100000x64_0_0,
    fun c => extractStridedSlice Cert.KernelIdeal.S50000x64 ![100000, 0]
      (Cert.Sage.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) Cert.KernelIdeal.Gen.slices_S150000x64_S50000x64_100000_0, ?_, ?_⟩
  · exact (θ_run Cert.KernelIdeal.defs _ _).mono
      (fun r h c => ⟨(h c).1.trans (Cert.KernelIdeal.HostVal.W5_v40 m ρ c),
        (h c).2.1.trans (Cert.KernelIdeal.HostVal.W5_v41 m ρ c), (h c).2.2⟩)
      (Cert.KernelIdeal.Run.run_named m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8⟩ := hagree c
      refine (Cert.ReferenceIdeal.RefValue.res0_eq m' c).trans ?_
      rw [h0, h1, h2, h3, h4, h5, h6, h7, h8]
    · obtain ⟨h0, h1, h2, h3, h4, h5, h6, h7, h8⟩ := hagree c
      refine (Cert.ReferenceIdeal.RefValue.res1_eq m' c).trans ?_
      rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
